-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S385x385x385 : Shape := ⟨3, ![385, 385, 385]⟩
abbrev S_ : Shape := ⟨0, ![]⟩

class Facts : Prop where
  bcast_S_S385x385x385 : S_.BroadcastsInDim S385x385x385 (![] : Fin 0 → Fin S385x385x385.rank)
  reducesTo_S385x385x385_S_d0_1_2 : S385x385x385.ReducesTo [0, 1, 2] S_
  h_S_ : 0 < S_.numel

variable [Facts]

def fn {F : FTy → Type} [FloatOps F] (main_arg0 : FVec F S385x385x385 .f32) : IVec S_ 1 :=
  let main_v0 : FVec F S385x385x385 .f32 := Host.absf main_arg0
  let main_cst : FVec F S_ .f32 := constant S_ .f32 0x7F800000#32
  let main_v1 : FVec F S385x385x385 .f32 := broadcastInDim S385x385x385 ![] bcast_S_S385x385x385 main_cst
  let main_v2 : IVec S385x385x385 1 := cmpf .olt main_v0 main_v1
  let main_c : IVec S_ 1 := constantI S_ 1 1#1
  let main_v3 : IVec S_ 1 := (fun x v => Host.reduce IntOp.andi x v reducesTo_S385x385x385_S_d0_1_2 h_S_) main_v2 main_c
  main_v3
-- ==== Kernel.lean ====
abbrev S385x385x385 : Shape := ⟨3, ![385, 385, 385]⟩
abbrev S2x1x1 : Shape := ⟨3, ![2, 1, 1]⟩
abbrev S8x385x385 : Shape := ⟨3, ![8, 385, 385]⟩
abbrev S1x385x385 : Shape := ⟨3, ![1, 385, 385]⟩
abbrev S1x1x1 : Shape := ⟨3, ![1, 1, 1]⟩
abbrev S385x385 : Shape := ⟨2, ![385, 385]⟩
abbrev S7x385x385 : Shape := ⟨3, ![7, 385, 385]⟩
abbrev S7x385 : Shape := ⟨2, ![7, 385]⟩
abbrev S7 : Shape := ⟨1, ![7]⟩
abbrev S7x1 : Shape := ⟨2, ![7, 1]⟩
abbrev S1 : Shape := ⟨1, ![1]⟩
abbrev S1x1 : Shape := ⟨2, ![1, 1]⟩
abbrev S385 : Shape := ⟨1, ![385]⟩
abbrev S385x1 : Shape := ⟨2, ![385, 1]⟩
abbrev S8x384x385 : Shape := ⟨3, ![8, 384, 385]⟩
abbrev S8x384 : Shape := ⟨2, ![8, 384]⟩
abbrev S8 : Shape := ⟨1, ![8]⟩
abbrev S8x1 : Shape := ⟨2, ![8, 1]⟩
abbrev S8x385x384 : Shape := ⟨3, ![8, 385, 384]⟩
abbrev S8x385 : Shape := ⟨2, ![8, 385]⟩
abbrev S384x385 : Shape := ⟨2, ![384, 385]⟩
abbrev S384 : Shape := ⟨1, ![384]⟩
abbrev S384x1 : Shape := ⟨2, ![384, 1]⟩
abbrev S385x384 : Shape := ⟨2, ![385, 384]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S385x385x385, .f32⟩
  | .hbm, ⟨1, _⟩ => ⟨S2x1x1, .f32⟩
  | .hbm, ⟨2, _⟩ => ⟨S_, .f32⟩
  | .hbm, ⟨3, _⟩ => ⟨S_, .f32⟩
  | .local _ .vmem, ⟨0, _⟩ => ⟨S8x385x385, .f32⟩
  | .local _ .vmem, ⟨1, _⟩ => ⟨S8x385x385, .f32⟩
  | .local _ .vmem, ⟨2, _⟩ => ⟨S1x385x385, .f32⟩
  | .local _ .vmem, ⟨3, _⟩ => ⟨S1x385x385, .f32⟩
  | .local _ .vmem, ⟨4, _⟩ => ⟨S1x1x1, .f32⟩
  | .local _ .vmem, ⟨5, _⟩ => ⟨S1x1x1, .f32⟩
  | _, _ => ⟨S385x385x385, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 24], ![false, false]⟩

def cc0_transform_0 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c1_i32 : BitVec 32 := 1#32
  let v2 : BitVec 32 := Scalar.addi v1 c1_i32
  let c8_i32 : BitVec 32 := 8#32
  let v3 : BitVec 32 := Scalar.muli v2 c8_i32
  let c0_i32 : BitVec 32 := 0#32
  let c0_i32_0 : BitVec 32 := 0#32
  let c0_i32_1 : BitVec 32 := 0#32
  ![v3.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x385x385 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x385x385 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S8x385x385_S8x385x385_0_0_0 : ∀ a, (![0, 0, 0] : Fin 3 → Nat) a + S8x385x385.size a ≤ S8x385x385.size a
  h_S8x385x385 : 0 < S8x385x385.numel
  inb_S1x385x385_S1x385x385_0_0_0 : ∀ a, (![0, 0, 0] : Fin 3 → Nat) a + S1x385x385.size a ≤ S1x385x385.size a
  h_S1x385x385 : 0 < S1x385x385.numel
  shapeCasts_S1x385x385_S385x385 : S1x385x385.ShapeCasts S385x385
  slices_S8x385x385_o7_0_0_S1x385x385 : S8x385x385.Slices ![7, 0, 0] S1x385x385
  slices_S8x385x385_o1_0_0_S7x385x385 : S8x385x385.Slices ![1, 0, 0] S7x385x385
  slices_S8x385x385_o0_0_0_S7x385x385 : S8x385x385.Slices ![0, 0, 0] S7x385x385
  reduces_S7x385x385_S7x385 : S7x385x385.Reduces [2] S7x385
  reduces_S7x385_S7 : S7x385.Reduces [1] S7
  shapeCasts_S7_S7x1 : S7.ShapeCasts S7x1
  reduces_S7x1_S1 : S7x1.Reduces [0] S1
  shapeCasts_S1_S1x1 : S1.ShapeCasts S1x1
  reduces_S385x385_S385 : S385x385.Reduces [1] S385
  shapeCasts_S385_S385x1 : S385.ShapeCasts S385x1
  reduces_S385x1_S1 : S385x1.Reduces [0] S1
  slices_S8x385x385_o0_1_0_S8x384x385 : S8x385x385.Slices ![0, 1, 0] S8x384x385
  slices_S8x385x385_o0_0_0_S8x384x385 : S8x385x385.Slices ![0, 0, 0] S8x384x385
  reduces_S8x384x385_S8x384 : S8x384x385.Reduces [2] S8x384
  reduces_S8x384_S8 : S8x384.Reduces [1] S8
  shapeCasts_S8_S8x1 : S8.ShapeCasts S8x1
  reduces_S8x1_S1 : S8x1.Reduces [0] S1
  slices_S8x385x385_o0_0_1_S8x385x384 : S8x385x385.Slices ![0, 0, 1] S8x385x384
  slices_S8x385x385_o0_0_0_S8x385x384 : S8x385x385.Slices ![0, 0, 0] S8x385x384
  reduces_S8x385x384_S8x385 : S8x385x384.Reduces [2] S8x385
  reduces_S8x385_S8 : S8x385.Reduces [1] S8
  slices_S385x385_o1_0_S384x385 : S385x385.Slices ![1, 0] S384x385
  slices_S385x385_o0_0_S384x385 : S385x385.Slices ![0, 0] S384x385
  reduces_S384x385_S384 : S384x385.Reduces [1] S384
  shapeCasts_S384_S384x1 : S384.ShapeCasts S384x1
  reduces_S384x1_S1 : S384x1.Reduces [0] S1
  slices_S385x385_o0_1_S385x384 : S385x385.Slices ![0, 1] S385x384
  slices_S385x385_o0_0_S385x384 : S385x385.Slices ![0, 0] S385x384
  reduces_S385x384_S385 : S385x384.Reduces [1] S385
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8x385x385.size a < S385x385x385.size a
  hwx0_0 : ∀ i : grid0.Coords, EltTy.bits .f32 = 32 ∨ (Rect.unit (s := S385x385x385) (fun a => cc0_transform_0 i a * S8x385x385.size a) (fun a => (Pipeline.Clip.of (cc0_transform_0 i a) (S8x385x385.size a) (S385x385x385.size a)).extent (S8x385x385.size a)) fun a => Pipeline.Clip.inb (Pipeline.Clip.ok_of (hstart0_0 i a))).WholeWords (EltTy.packing .f32)
  hwxs0_0 : ∀ i : grid0.Coords, EltTy.bits .f32 = 32 ∨ (Rect.unit (s := S8x385x385) (fun _ => 0) (fun a => (Pipeline.Clip.of (cc0_transform_0 i a) (S8x385x385.size a) (S385x385x385.size a)).extent (S8x385x385.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x385x385.size a ≤ S385x385x385.size a
  hwx0_1 : ∀ i : grid0.Coords, EltTy.bits .f32 = 32 ∨ (Rect.block (s := S385x385x385) S1x385x385.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpecClip (Memref.whole main_arg0) S8x385x385.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S1x385x385.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S385x385x385 : Shape := ⟨3, ![385, 385, 385]⟩
abbrev S384x385x385 : Shape := ⟨3, ![384, 385, 385]⟩
abbrev S_ : Shape := ⟨0, ![]⟩
abbrev S385x384x385 : Shape := ⟨3, ![385, 384, 385]⟩
abbrev S385x385x384 : Shape := ⟨3, ![385, 385, 384]⟩

abbrev nBuf : Space → Nat
  | .hbm => 21
  | .vmem => 0
  | .smem => 0
  | _ => 0

abbrev bufTy : (tb : Table) → Fin (tcTables nBuf tb) → BufTy
  | .hbm, ⟨0, _⟩ => ⟨S385x385x385, .f32⟩
  | .hbm, ⟨1, _⟩ => ⟨S384x385x385, .f32⟩
  | .hbm, ⟨2, _⟩ => ⟨S384x385x385, .f32⟩
  | .hbm, ⟨3, _⟩ => ⟨S384x385x385, .f32⟩
  | .hbm, ⟨4, _⟩ => ⟨S384x385x385, .f32⟩
  | .hbm, ⟨5, _⟩ => ⟨S_, .f32⟩
  | .hbm, ⟨6, _⟩ => ⟨S_, .f32⟩
  | .hbm, ⟨7, _⟩ => ⟨S385x384x385, .f32⟩
  | .hbm, ⟨8, _⟩ => ⟨S385x384x385, .f32⟩
  | .hbm, ⟨9, _⟩ => ⟨S385x384x385, .f32⟩
  | .hbm, ⟨10, _⟩ => ⟨S385x384x385, .f32⟩
  | .hbm, ⟨11, _⟩ => ⟨S_, .f32⟩
  | .hbm, ⟨12, _⟩ => ⟨S_, .f32⟩
  | .hbm, ⟨13, _⟩ => ⟨S385x385x384, .f32⟩
  | .hbm, ⟨14, _⟩ => ⟨S385x385x384, .f32⟩
  | .hbm, ⟨15, _⟩ => ⟨S385x385x384, .f32⟩
  | .hbm, ⟨16, _⟩ => ⟨S385x385x384, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | _, _ => ⟨S385x385x385, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]

class Facts₀ : Prop where
  slices_S385x385x385_S384x385x385_1_0_0 : S385x385x385.Slices ![1, 0, 0] S384x385x385
  slices_S385x385x385_S384x385x385_0_0_0 : S385x385x385.Slices ![0, 0, 0] S384x385x385
  reducesTo_S384x385x385_S_d0_1_2 : S384x385x385.ReducesTo [0, 1, 2] S_
  h_S_ : 0 < S_.numel
  slices_S385x385x385_S385x384x385_0_1_0 : S385x385x385.Slices ![0, 1, 0] S385x384x385
  slices_S385x385x385_S385x384x385_0_0_0 : S385x385x385.Slices ![0, 0, 0] S385x384x385
  reducesTo_S385x384x385_S_d0_1_2 : S385x384x385.ReducesTo [0, 1, 2] S_
  slices_S385x385x385_S385x385x384_0_0_1 : S385x385x385.Slices ![0, 0, 1] S385x385x384
  slices_S385x385x385_S385x385x384_0_0_0 : S385x385x385.Slices ![0, 0, 0] S385x385x384
  reducesTo_S385x385x384_S_d0_1_2 : S385x385x384.ReducesTo [0, 1, 2] S_

variable [Facts₀]

class Facts : Prop extends Facts₀ where

variable [Facts]
-- ==== Proof.K.Defs.lean ====
/-
  What the three control cases of the sweep's body share: the arrays as the region finds them, a window's block
  read off its array, the two branch conditions of the body as propositions over the grid coordinates with their
  closed forms over the 48 grid points (the accumulator is reset at the first point of each half, t ≡ 0 mod 24;
  the last plane's in-plane differences are added at the very last point, t = 47), and the staging memrefs the
  pipeline hands the body at a point.
-/
import proofs.«145846_j44753559224580_2_alg».proof.Proof.Gen.Kernel.Launch
import proofs.«145846_j44753559224580_2_alg».proof.Proof.Gen.Kernel.Skeleton
import proofs.«145846_j44753559224580_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched (the region is the program's first line). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first branch of the body: "this is the first point of the half" (second grid coordinate zero). -/
abbrev cond0_0 (i : grid0.Coords) : Prop := (Scalar.cmpi .ne (Scalar.extui (Scalar.cmpi .eq (BitVec.ofNat 32 (i 1).val) 0#32)) 0#32) = 1#1
/-- The second branch: "this is the last point of the last half" (coordinates 1 and 23). -/
abbrev cond0_1 (i : grid0.Coords) : Prop := (Scalar.cmpi .ne (Scalar.extui (Scalar.andi (Scalar.cmpi .eq (BitVec.ofNat 32 (i 0).val) 1#32) (Scalar.cmpi .eq (BitVec.ofNat 32 (i 1).val) 23#32))) 0#32) = 1#1
/-- The first holds at the points t ≡ 0 (mod 24). -/
theorem hcond0_0 : ∀ t : Fin cfg0.N, cond0_0 (grid0.coords t) ↔ t.val % 24 = 0 :=
  (by decide +kernel : ∀ t : Fin grid0.N, cond0_0 (grid0.coords t) ↔ t.val % 24 = 0)
/-- The second holds at the last point only. -/
theorem hcond0_1 : ∀ t : Fin cfg0.N, cond0_1 (grid0.coords t) ↔ t.val = 47 :=
  (by decide +kernel : ∀ t : Fin grid0.N, cond0_1 (grid0.coords t) ↔ t.val = 47)

/-- One staging buffer of the output window, through which its contents are stated. -/
abbrev VO0_2 : View sig .tc .vmem S1x1x1 .f32 := (Memref.whole cc0_stg2_0 : Memref sig .tc .vmem S1x1x1 .f32).view
/-- Each window's current staging memref at point `t`, as the pipeline passes it, and its wholeness. -/
abbrev ms0_0 (t : Fin cfg0.N) : Memref sig .tc .vmem S8x385x385 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x385x385 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1 .f32 := win0_2.stage (cfg0.slots t 2)
abbrev hs0_2 (t : Fin cfg0.N) : (ms0_2 t).IsWhole := hstage0_2 ((cfg0.slots t 2).cast nbuf0_2)

end Cert.Kernel.Hand

end
-- ==== Proof.K.RunA.lean ====
/-
  The sweep's body run whole in one of its control cases (the first point of a half: the accumulator is reset, nothing more is added): on whole staging memrefs — the slab and the
  halo plane at their contents, the accumulator's buffer at anything — it runs to the end, leaves the two
  inputs as they were and the accumulator's buffer with the case's stores written over it; the list of stores is
  found by the run itself.
-/
import proofs.«145846_j44753559224580_2_alg».proof.Proof.K.Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the accumulator's buffer in this case (last first), with the proof that the body runs
    to a continuation holding the inputs unchanged and the accumulator's buffer with them written. -/
noncomputable def kernelRun0_A (c : Dev nD) (i : grid0.Coords) (arg2 : Memref sig .tc .vmem S8x385x385 .f32) (harg2 : arg2.IsWhole) (arg3 : Memref sig .tc .vmem S1x385x385 .f32) (harg3 : arg3.IsWhole) (arg4 : Memref sig .tc .vmem S1x1x1 .f32) (harg4 : arg4.IsWhole) (hc0 : cond0_0 i) (hc1 : ¬cond0_1 i)
    (x0 : Vec F S8x385x385 .f32) (x1 : Vec F S1x385x385 .f32) :
    { L2 : List (View.Piece (Elt F) S1x1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__kernel i arg2 harg2 arg3 harg3 arg4 harg4) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K.RunB.lean ====
/-
  The sweep's body run whole in one of its control cases (a middle point: the slab's total is added to the running accumulator): on whole staging memrefs — the slab and the
  halo plane at their contents, the accumulator's buffer at its running contents — it runs to the end, leaves the two
  inputs as they were and the accumulator's buffer with the case's stores written over it; the list of stores is
  found by the run itself.
-/
import proofs.«145846_j44753559224580_2_alg».proof.Proof.K.Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the accumulator's buffer in this case (last first), with the proof that the body runs
    to a continuation holding the inputs unchanged and the accumulator's buffer with them written. -/
noncomputable def kernelRun0_B (c : Dev nD) (i : grid0.Coords) (arg2 : Memref sig .tc .vmem S8x385x385 .f32) (harg2 : arg2.IsWhole) (arg3 : Memref sig .tc .vmem S1x385x385 .f32) (harg3 : arg3.IsWhole) (arg4 : Memref sig .tc .vmem S1x1x1 .f32) (harg4 : arg4.IsWhole) (hc0 : ¬cond0_0 i) (hc1 : ¬cond0_1 i)
    (x0 : Vec F S8x385x385 .f32) (x1 : Vec F S1x385x385 .f32) (xo2 : Vec F S1x1x1 .f32) :
    { L2 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__kernel i arg2 harg2 arg3 harg3 arg4 harg4) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K.RunC.lean ====
/-
  The sweep's body run whole in one of its control cases (the last point: the last plane's in-plane differences are added first, then the slab's total): on whole staging memrefs — the slab and the
  halo plane at their contents, the accumulator's buffer at its running contents — it runs to the end, leaves the two
  inputs as they were and the accumulator's buffer with the case's stores written over it; the list of stores is
  found by the run itself.
-/
import proofs.«145846_j44753559224580_2_alg».proof.Proof.K.Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the accumulator's buffer in this case (last first), with the proof that the body runs
    to a continuation holding the inputs unchanged and the accumulator's buffer with them written. -/
noncomputable def kernelRun0_C (c : Dev nD) (i : grid0.Coords) (arg2 : Memref sig .tc .vmem S8x385x385 .f32) (harg2 : arg2.IsWhole) (arg3 : Memref sig .tc .vmem S1x385x385 .f32) (harg3 : arg3.IsWhole) (arg4 : Memref sig .tc .vmem S1x1x1 .f32) (harg4 : arg4.IsWhole) (hc0 : ¬cond0_0 i) (hc1 : cond0_1 i)
    (x0 : Vec F S8x385x385 .f32) (x1 : Vec F S1x385x385 .f32) (xo2 : Vec F S1x1x1 .f32) :
    { L2 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__kernel i arg2 harg2 arg3 harg3 arg4 harg4) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.K.Frame.lean ====
/-
  The sweep point by point. After the body at a point the accumulator's staging buffer holds the case's stores
  read back: at the first point of a half the reset followed by the slab's total; at a middle point the slab's
  total added to what the point before left; at the last point the last plane's in-plane differences and then
  the slab's total added to what the point before left. The two input windows are fetched at every point, so
  the body always finds the slab and its halo plane as the array holds them; the accumulator's block is written
  back only at the last point of each half, so between those the buffer carries the running total. From this
  the body's obligation at every point follows case by case.
-/
import proofs.«145846_j44753559224580_2_alg».proof.Proof.K.RunA
import proofs.«145846_j44753559224580_2_alg».proof.Proof.K.RunB
import proofs.«145846_j44753559224580_2_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulator's buffer -/

theorem cover0_A_2 (c : Dev nD) (i : grid0.Coords) (arg2 : Memref sig .tc .vmem S8x385x385 .f32) (harg2 : arg2.IsWhole) (arg3 : Memref sig .tc .vmem S1x385x385 .f32) (harg3 : arg3.IsWhole) (arg4 : Memref sig .tc .vmem S1x1x1 .f32) (harg4 : arg4.IsWhole) (hc0 : cond0_0 i) (hc1 : ¬cond0_1 i)
    (x0 : Vec F S8x385x385 .f32) (x1 : Vec F S1x385x385 .f32) (y : S1x1x1.Idx) :
    ∃ pc ∈ (kernelRun0_A c i arg2 harg2 arg3 harg3 arg4 harg4 hc0 hc1 x0 x1).1, y ∈ pc.1.set :=
  View.cover_of_tiledL (kernelRun0_A c i arg2 harg2 arg3 harg3 arg4 harg4 hc0 hc1 x0 x1).1 S1x1x1.size (by sl_kernel_rfl) y

def out0_A_2 (c : Dev nD) (i : grid0.Coords) (arg2 : Memref sig .tc .vmem S8x385x385 .f32) (harg2 : arg2.IsWhole) (arg3 : Memref sig .tc .vmem S1x385x385 .f32) (harg3 : arg3.IsWhole) (arg4 : Memref sig .tc .vmem S1x1x1 .f32) (harg4 : arg4.IsWhole) (hc0 : cond0_0 i) (hc1 : ¬cond0_1 i)
    (x0 : Vec F S8x385x385 .f32) (x1 : Vec F S1x385x385 .f32) : Vec F S1x1x1 .f32 :=
  VO0_2.read (Elt F) (VO0_2.writes (Elt F) VO0_2.junk (kernelRun0_A c i arg2 harg2 arg3 harg3 arg4 harg4 hc0 hc1 x0 x1).1)

theorem cover0_B_2 (c : Dev nD) (i : grid0.Coords) (arg2 : Memref sig .tc .vmem S8x385x385 .f32) (harg2 : arg2.IsWhole) (arg3 : Memref sig .tc .vmem S1x385x385 .f32) (harg3 : arg3.IsWhole) (arg4 : Memref sig .tc .vmem S1x1x1 .f32) (harg4 : arg4.IsWhole) (hc0 : ¬cond0_0 i) (hc1 : ¬cond0_1 i)
    (x0 : Vec F S8x385x385 .f32) (x1 : Vec F S1x385x385 .f32) (xo2 : Vec F S1x1x1 .f32) (y : S1x1x1.Idx) :
    ∃ pc ∈ (kernelRun0_B c i arg2 harg2 arg3 harg3 arg4 harg4 hc0 hc1 x0 x1 xo2).1, y ∈ pc.1.set :=
  View.cover_of_tiledL (kernelRun0_B c i arg2 harg2 arg3 harg3 arg4 harg4 hc0 hc1 x0 x1 xo2).1 S1x1x1.size (by sl_kernel_rfl) y

def out0_B_2 (c : Dev nD) (i : grid0.Coords) (arg2 : Memref sig .tc .vmem S8x385x385 .f32) (harg2 : arg2.IsWhole) (arg3 : Memref sig .tc .vmem S1x385x385 .f32) (harg3 : arg3.IsWhole) (arg4 : Memref sig .tc .vmem S1x1x1 .f32) (harg4 : arg4.IsWhole) (hc0 : ¬cond0_0 i) (hc1 : ¬cond0_1 i)
    (x0 : Vec F S8x385x385 .f32) (x1 : Vec F S1x385x385 .f32) (xo2 : Vec F S1x1x1 .f32) : Vec F S1x1x1 .f32 :=
  VO0_2.read (Elt F) (VO0_2.writes (Elt F) VO0_2.junk (kernelRun0_B c i arg2 harg2 arg3 harg3 arg4 harg4 hc0 hc1 x0 x1 xo2).1)

theorem cover0_C_2 (c : Dev nD) (i : grid0.Coords) (arg2 : Memref sig .tc .vmem S8x385x385 .f32) (harg2 : arg2.IsWhole) (arg3 : Memref sig .tc .vmem S1x385x385 .f32) (harg3 : arg3.IsWhole) (arg4 : Memref sig .tc .vmem S1x1x1 .f32) (harg4 : arg4.IsWhole) (hc0 : ¬cond0_0 i) (hc1 : cond0_1 i)
    (x0 : Vec F S8x385x385 .f32) (x1 : Vec F S1x385x385 .f32) (xo2 : Vec F S1x1x1 .f32) (y : S1x1x1.Idx) :
    ∃ pc ∈ (kernelRun0_C c i arg2 harg2 arg3 harg3 arg4 harg4 hc0 hc1 x0 x1 xo2).1, y ∈ pc.1.set :=
  View.cover_of_tiledL (kernelRun0_C c i arg2 harg2 arg3 harg3 arg4 harg4 hc0 hc1 x0 x1 xo2).1 S1x1x1.size (by sl_kernel_rfl) y

def out0_C_2 (c : Dev nD) (i : grid0.Coords) (arg2 : Memref sig .tc .vmem S8x385x385 .f32) (harg2 : arg2.IsWhole) (arg3 : Memref sig .tc .vmem S1x385x385 .f32) (harg3 : arg3.IsWhole) (arg4 : Memref sig .tc .vmem S1x1x1 .f32) (harg4 : arg4.IsWhole) (hc0 : ¬cond0_0 i) (hc1 : cond0_1 i)
    (x0 : Vec F S8x385x385 .f32) (x1 : Vec F S1x385x385 .f32) (xo2 : Vec F S1x1x1 .f32) : Vec F S1x1x1 .f32 :=
  VO0_2.read (Elt F) (VO0_2.writes (Elt F) VO0_2.junk (kernelRun0_C c i arg2 harg2 arg3 harg3 arg4 harg4 hc0 hc1 x0 x1 xo2).1)

/-! ## The input blocks as the body finds them -/

/-- The slab at point `t` as the staging buffer holds it once fetched (the part of the buffer a fetch does not fill, of which
    there is none at these points, at the zero word). -/
def x0blk (c : Dev nD) (t : Fin cfg0.N) : Vec F S8x385x385 .f32 :=
  win0_0.fill (grid0.coords t) (fun _ => Scalar.ofBits .f32 0#32) (iblk m c 0 t)
/-- The halo plane at point `t` likewise. -/
def x1blk (c : Dev nD) (t : Fin cfg0.N) : Vec F S1x385x385 .f32 :=
  win0_1.fill (grid0.coords t) (fun _ => Scalar.ofBits .f32 0#32) (iblk m c 1 t)

/-- No slab the sweep visits overhangs the array: slabs 0 … 47 end at plane 383. -/
theorem clip0_0 : ∀ (t : Fin cfg0.N) a, (cfg0.win 0).clip (grid0.coords t) a = none :=
  (by decide +kernel : ∀ (t : Fin grid0.N) a, win0_0.clip (grid0.coords t) a = none)

/-! ## What the accumulator's buffer holds after each point -/

theorem not_last_of_first {n : ℕ} (h : n % 24 = 0) : n ≠ 47 := by omega

/-- The running total, by recursion on the point. -/
def outsAt0 (c : Dev nD) : (n : ℕ) → n < cfg0.N → Vec F S1x1x1 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      ((hcond0_0 ⟨0, hn⟩).mpr (Nat.zero_mod _)) (fun h => not_last_of_first (Nat.zero_mod 24) ((hcond0_1 ⟨0, hn⟩).mp h)) (x0blk m c ⟨0, hn⟩) (x1blk m c ⟨0, hn⟩)
  | n + 1, hn =>
    if h0 : (n + 1) % 24 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        ((hcond0_0 ⟨n + 1, hn⟩).mpr h0) (fun h => not_last_of_first h0 ((hcond0_1 ⟨n + 1, hn⟩).mp h)) (x0blk m c ⟨n + 1, hn⟩) (x1blk m c ⟨n + 1, hn⟩)
    else if h1 : n + 1 = 47 then
      out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (fun h => h0 ((hcond0_0 ⟨n + 1, hn⟩).mp h)) ((hcond0_1 ⟨n + 1, hn⟩).mpr h1) (x0blk m c ⟨n + 1, hn⟩) (x1blk m c ⟨n + 1, hn⟩) (outsAt0 c n (Nat.lt_of_succ_lt hn))
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (fun h => h0 ((hcond0_0 ⟨n + 1, hn⟩).mp h)) (fun h => h1 ((hcond0_1 ⟨n + 1, hn⟩).mp h)) (x0blk m c ⟨n + 1, hn⟩) (x1blk m c ⟨n + 1, hn⟩) (outsAt0 c n (Nat.lt_of_succ_lt hn))

theorem outsAt0_A (c : Dev nD) (t : Fin cfg0.N) (h0 : t.val % 24 = 0) :
    outsAt0 m c t.val t.isLt = out0_A_2 c (grid0.coords t) (ms0_0 t) (hs0_0 t) (ms0_1 t) (hs0_1 t) (ms0_2 t) (hs0_2 t)
      ((hcond0_0 t).mpr h0) (fun h => not_last_of_first h0 ((hcond0_1 t).mp h)) (x0blk m c t) (x1blk m c t) := by
  obtain ⟨n, hn⟩ := t
  cases n with
  | zero => exact rfl
  | succ n => exact (dif_pos h0).trans rfl

theorem outsAt0_B (c : Dev nD) (t : Fin cfg0.N) (h0 : ¬t.val % 24 = 0) (h1 : ¬t.val = 47) :
    outsAt0 m c t.val t.isLt = out0_B_2 c (grid0.coords t) (ms0_0 t) (hs0_0 t) (ms0_1 t) (hs0_1 t) (ms0_2 t) (hs0_2 t)
      (fun h => h0 ((hcond0_0 t).mp h)) (fun h => h1 ((hcond0_1 t).mp h)) (x0blk m c t) (x1blk m c t)
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 24 = 0) (h1 : t.val = 47) :
    outsAt0 m c t.val t.isLt = out0_C_2 c (grid0.coords t) (ms0_0 t) (hs0_0 t) (ms0_1 t) (hs0_1 t) (ms0_2 t) (hs0_2 t)
      (fun h => h0 ((hcond0_0 t).mp h)) ((hcond0_1 t).mpr h1) (x0blk m c t) (x1blk m c t)
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The arrays as the region finds them; after the body at point `t` the two inputs' buffers at their blocks and the
    accumulator's at the running total; no invariant; nothing owed; the one array two input windows read is held half by
    each of them. -/
def dats (_ : Fin 1) (c : Dev nD) : Dat τ (Elt F) Unit ℕ (UR sig nD τ) ℕ cfg0 c where
  A w := V m c (Pipeline.arrRef spec0 w)
  after w t := match w with
    | ⟨0, _⟩ => x0blk m c t
    | ⟨1, _⟩ => x1blk m c t
    | ⟨2, _⟩ => outsAt0 m c t.val t.isLt
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = x0blk m c t := by dsimp only [dats]
theorem after0_1 (c : Dev nD) (t : Fin cfg0.N) : (dats m 0 c).after 1 t = x1blk m c t := by dsimp only [dats]
theorem after0_2 (c : Dev nD) (t : Fin cfg0.N) : (dats m 0 c).after 2 t = outsAt0 m c t.val t.isLt := by dsimp only [dats]

/-- Each input's buffer holds its block at every point: both are fetched at every point, and no fetch is cut. -/
theorem before0_0 (c : Dev nD) (t : Fin cfg0.N) (d) : (dats m 0 c).before 0 t d = x0blk m c t := by
  unfold Dat.before; rw [if_pos (fetch0_0 t)]
  exact (dats m 0 c).fetched_of_clip_none 0 t (clip0_0 t) d _
theorem before0_1 (c : Dev nD) (t : Fin cfg0.N) (d) : (dats m 0 c).before 1 t d = x1blk m c t := by
  unfold Dat.before; rw [if_pos (fetch0_1 t)]
  exact (dats m 0 c).fetched_of_clip_none 1 t (fun _ => rfl) d _

/-- At a point that is not the first of a half the accumulator's buffer holds what the point before left: it was
    not written back in between. -/
theorem before0_2_kept (c : Dev nD) (t : Fin cfg0.N) (h0 : ¬t.val % 24 = 0) (d) :
    (dats m 0 c).before 2 t d = outsAt0 m c (t.val - 1) (Nat.lt_of_le_of_lt (Nat.sub_le _ _) t.isLt) := by
  have hN : t.val < 48 := lt_of_lt_of_eq t.isLt (show cfg0.N = 48 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (∃ d, owns (c : Thread nD τ) (ms0_0 t) fullShare (win0_0.fill (grid0.coords t) d (win0_0.cut (grid0.coords t) ((dats m 0 c).after 0 t))))
    ∗ owns (c : Thread nD τ) (ms0_1 t) fullShare ((dats m 0 c).after 1 t)
    ∗ owns (c : Thread nD τ) (ms0_2 t) fullShare ((dats m 0 c).after 2 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 48 := lt_of_lt_of_eq t.isLt (show cfg0.N = 48 from N_0)
  by_cases h0 : t.val % 24 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (fun h => not_last_of_first h0 ((hcond0_1 t).mp h)) (x0blk m c t) (x1blk m c t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]
    · iexists (x0blk m c t); rw [Window.fill_cut]; iexact H0
    isplitl [H1]; · iexact H1
    unfold owns; iexists _; isplitr
    swap; · iexact H2
    ipureintro; exact View.read_writes_of_cover _ _ _ _ _ (cover0_A_2 c _ _ _ _ _ _ _ _ _ _ _)
  · by_cases h1 : t.val = 47
    · rw [outsAt0_C m c t h0 h1]
      simp only [before0_2_kept m c t h0]
      unfold out0_C_2
      iintro ⟨HΦ, Ho, ⟨%d0, H0⟩, ⟨%d1, H1⟩, ⟨%d2, H2⟩⟩
      iapply ((kernelRun0_C c (grid0.coords t) _ _ _ _ _ _ (fun h => h0 ((hcond0_0 t).mp h)) ((hcond0_1 t).mpr h1) (x0blk m c t) (x1blk m c t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]
      · iexists (x0blk m c t); rw [Window.fill_cut]; iexact H0
      isplitl [H1]; · iexact H1
      unfold owns; iexists _; isplitr
      swap; · iexact H2
      ipureintro; exact View.read_writes_of_cover _ _ _ _ _ (cover0_C_2 c _ _ _ _ _ _ _ _ _ _ _ _)
    · rw [outsAt0_B m c t h0 h1]
      simp only [before0_2_kept m c t h0]
      unfold out0_B_2
      iintro ⟨HΦ, Ho, ⟨%d0, H0⟩, ⟨%d1, H1⟩, ⟨%d2, H2⟩⟩
      iapply ((kernelRun0_B c (grid0.coords t) _ _ _ _ _ _ (fun h => h0 ((hcond0_0 t).mp h)) (fun h => h1 ((hcond0_1 t).mp h)) (x0blk m c t) (x1blk m c t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]
      · iexists (x0blk m c t); rw [Window.fill_cut]; iexact H0
      isplitl [H1]; · iexact H1
      unfold owns; iexists _; isplitr
      swap; · iexact H2
      ipureintro; exact View.read_writes_of_cover _ _ _ _ _ (cover0_B_2 c _ _ _ _ _ _ _ _ _ _ _ _)

/-- The library's body obligation, at every point. -/
theorem body_obligation (c : Dev nD) : BodyObligationLoose (dats (F := F) m 0 c) (defs₀ (F := F)) Variants.none () Set.univ := fun t => by
  rw [bigSep_W0, bigSep_W0]
  exact sound_body m c t

end Cert.Kernel.Hand

end
-- ==== Proof.K.Launch.lean ====
/-
  The whole program run: the region (the sweep over its 48 grid points) followed by the two host lines that add
  the two halves' totals. One array is read through two input windows (the slabs and the halo planes); each window
  holds half of the array's share for the length of the region, and the halves are joined again at the region's
  exit, where the host lines read the accumulator array and write the result. Every weakly fair execution ends;
  the argument array ends as it began; the result holds the host lines' value of what the sweep left.
-/
import proofs.«145846_j44753559224580_2_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The device's buffers when the region ends: the accumulator array at what the write-backs left, the rest as launched. -/
def Wexit (c : Dev nD) : Valuation τ sig (Elt F) :=
  Function.update (fun b => m (c, b)) (Proc.devRef .tc main_v0) ((dats m 0 c).arrAt 2 cfg0.N)
/-- The device's buffers after the host lines. -/
def Wfin (c : Dev nD) : Valuation τ sig (Elt F) := StableHlo.after hostOps1 (Wexit m c)

theorem Wexit_v0 (c : Dev nD) : Wexit m c (Proc.devRef .tc main_v0) = (dats m 0 c).arrAt 2 cfg0.N := Function.update_self ..
theorem Wexit_arg0 (c : Dev nD) : Wexit m c (Proc.devRef .tc main_arg0) = m ((c : Thread nD τ).loc main_arg0) := Function.update_of_ne (by decide) ..
theorem Wexit_cst (c : Dev nD) : Wexit m c (Proc.devRef .tc main_cst) = m ((c : Thread nD τ).loc main_cst) := Function.update_of_ne (by decide) ..
theorem Wexit_v1 (c : Dev nD) : Wexit m c (Proc.devRef .tc main_v1) = m ((c : Thread nD τ).loc main_v1) := Function.update_of_ne (by decide) ..

/-- The host lines write the constant and the result only. -/
theorem hostOps1_keeps (b : Ref sig .tc) (hb : b ≠ main_cst) (hb' : b ≠ main_v1) :
    ∀ op ∈ (hostOps1 : List (HloOp τ sig (Elt F))), Proc.devRef .tc b ∉ op.writes := by
  intro op hop
  simp only [hostOps1, List.mem_cons, List.mem_nil_iff, or_false] at hop
  rcases hop with rfl | rfl
  all_goals simp only [StableHlo.nullary_writes, StableHlo.binary_writes, Finset.mem_singleton]
  · exact StableHlo.devRef_ne_of_ne hb
  · exact StableHlo.devRef_ne_of_ne hb'

theorem Wfin_arg0 (c : Dev nD) : Wfin m c (Proc.devRef .tc main_arg0) = m ((c : Thread nD τ).loc main_arg0) := by
  unfold Wfin; rw [StableHlo.after_of_forall_not_mem _ _ (hostOps1_keeps main_arg0 (by decide) (by decide)), Wexit_arg0]
theorem Wfin_v0 (c : Dev nD) : Wfin m c (Proc.devRef .tc main_v0) = (dats m 0 c).arrAt 2 cfg0.N := by
  unfold Wfin; rw [StableHlo.after_of_forall_not_mem _ _ (hostOps1_keeps main_v0 (by decide) (by decide)), Wexit_v0]

/-- The unscoped buffers one by one. -/
theorem unscopedBufs_eq (c : Dev nD) (Vv : (b : Ref sig .tc) → Buf (Elt F) ((c : Thread nD τ).loc b)) :
    (unscopedBufs c Vv : sProp 𝕄)
      = iprop((((c : Thread nD τ).loc main_arg0) ↦{fullShare} Vv main_arg0) ∗ (((c : Thread nD τ).loc main_v0) ↦{fullShare} Vv main_v0)
          ∗ (((c : Thread nD τ).loc main_cst) ↦{fullShare} Vv main_cst) ∗ (((c : Thread nD τ).loc main_v1) ↦{fullShare} Vv main_v1)) := by
  unfold unscopedBufs
  rw [bigSep_eq_bigSepL_of_eq [main_arg0, main_v0, main_cst, main_v1] (by decide) (by decide)]
  rfl

/-- The buffers behind the windows' arrays: the argument and the accumulator array. -/
theorem arrBufs_eq (c : Dev nD) (Vv : (b : Ref sig .tc) → Buf (Elt F) ((c : Thread nD τ).loc b)) :
    (Pipeline.arrBufs spec0 c Vv : sProp 𝕄)
      = iprop((((c : Thread nD τ).loc main_arg0) ↦{fullShare} Vv main_arg0) ∗ (((c : Thread nD τ).loc main_v0) ↦{fullShare} Vv main_v0)) := by
  unfold Pipeline.arrBufs
  rw [bigSep_eq_bigSepL_of_eq [main_arg0, main_v0] (by decide) (by decide)]
  rfl

/-- The windows' arrays as the proof data holds them: the argument array half by each input window, the accumulator
    array whole. -/
theorem arrays_eq3 (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1)
          ∗ (((c : Thread nD τ).loc main_v0) ↦{fullShare} Fa 2)) := by
  unfold Dat.arrays
  rw [bigSep_W0, (arr_whole0 0).set_eq_univ, (arr_whole0 2).set_eq_univ]
  rfl

/-- The arrays as the region leaves them: the argument array untouched, the accumulator array at what the write-backs left. -/
theorem arrays_exit (c : Dev nD) :
    ((dats m 0 c).arrays ((dats m 0 c).arrAt · cfg0.N) : sProp 𝕄)
      = iprop((((c : Thread nD τ).loc main_arg0) ↦{fullShare.left} m ((c : Thread nD τ).loc main_arg0))
          ∗ (((c : Thread nD τ).loc main_arg0) ↦{fullShare.right} m ((c : Thread nD τ).loc main_arg0))
          ∗ (((c : Thread nD τ).loc main_v0) ↦{fullShare} (dats m 0 c).arrAt 2 cfg0.N)) := by
  rw [arrays_eq3]
  rw [(dats m 0 c).arrAt_in 0 rfl, (dats m 0 c).arrAt_in 1 rfl]
  rfl

/-- Entry: the argument array is dealt in halves to the two input windows. -/
theorem hsplit (c : Dev nD) : (Pipeline.arrBufs spec0 c (V m c) : sProp 𝕄) ⊢ (dats m 0 c).arrays ((dats m 0 c).arrAt · 0) := by
  rw [arrBufs_eq, arrays_eq3]
  iintro ⟨Ha, Hv⟩
  ihave Ha' := (pointsTo_share (PosShare.mem_left_op_right fullShare)).1 $$ Ha
  icases Ha' with ⟨Hl, Hr⟩
  isplitl [Hl]; · iexact Hl
  isplitl [Hr]; · iexact Hr
  iexact Hv

theorem hostOps1_subU : ∀ ops ∈ ([hostOps1] : List (List (HloOp τ sig (Elt F)))), ∀ op ∈ ops, op.bufs ⊆ Pipeline.ucRefs τ sig := by
  intro ops hops op hop
  simp only [List.mem_cons, List.mem_nil_iff, or_false] at hops
  subst hops
  exact Pipeline.sub_ucRefs op ((List.forall_iff_forall_mem.mp hostOps1_sub) op hop)

theorem hostOps1_freshU : ∀ ops ∈ ([hostOps1] : List (List (HloOp τ sig (Elt F)))), ∀ op ∈ ops, op.fresh = ∅ := by
  intro ops hops op hop
  simp only [List.mem_cons, List.mem_nil_iff, or_false] at hops
  subst hops
  simp only [hostOps1, List.mem_cons, List.mem_nil_iff, or_false] at hop
  rcases hop with rfl | rfl <;> rfl

/-- The host lines after the region: from the region's exit — the argument array's halves joined again, the accumulator
    array as the sweep left it — they run to the result. -/
theorem htail (c : Dev nD) (Q' : PUnit → sProp 𝕄) :
    iprop((iprop((dats m 0 c).arrays ((dats m 0 c).arrAt · cfg0.N) ∗ Pipeline.unscopedRest spec0 c (fun b => Wfin m c (Proc.devRef .tc b))) -∗ Q' ⟨⟩)
        ∗ boundary (c : Thread nD τ) ∗ (dats m 0 c).arrays ((dats m 0 c).arrAt · cfg0.N) ∗ Pipeline.unscopedRest spec0 c (V m c))
      ⊢ wp frame (wpE (defs (F := F)) (Variants.lift Variants.none) (c : Thread nD τ) none) Set.univ (Pipeline.chain ([hostOps1].map StableHlo.seq)) Q' := by
  have hU : ∀ W : Valuation τ sig (Elt F), (StableHlo.held (c : Thread nD τ) (Pipeline.ucRefs τ sig) W : sProp 𝕄)
      = iprop((((c : Thread nD τ).loc main_arg0) ↦{fullShare} W (Proc.devRef .tc main_arg0)) ∗ (((c : Thread nD τ).loc main_v0) ↦{fullShare} W (Proc.devRef .tc main_v0))
          ∗ (((c : Thread nD τ).loc main_cst) ↦{fullShare} W (Proc.devRef .tc main_cst)) ∗ (((c : Thread nD τ).loc main_v1) ↦{fullShare} W (Proc.devRef .tc main_v1))) := fun W => by
    rw [← Pipeline.unscopedBufs_held, unscopedBufs_eq]
  have hfl : StableHlo.after ([hostOps1] : List (List (HloOp τ sig (Elt F)))).flatten (Wexit m c) = Wfin m c := by
    simp only [List.flatten_cons, List.flatten_nil, List.append_nil]; rfl
  have hseq := Pipeline.wp_seqs_then (Ix := Unit) (Name := ℕ) (U := UR sig nD τ) (Lvl := ℕ) (fun p => (cfgs p).toPCfg) (defs₀ (F := F)) Variants.none c
    (Pipeline.ucRefs τ sig) [] [hostOps1] hostOps1_subU hostOps1_freshU (Wexit m c) (K := Q')
  rw [Pipeline.chain_nil, wp_pure, List.append_nil, hfl, hU, hU, Wexit_arg0, Wexit_v0, Wexit_cst, Wexit_v1, Wfin_arg0, Wfin_v0] at hseq
  rw [arrays_exit, unscopedRest0_eq, unscopedRest0_eq]
  iintro ⟨Hk, Hb, ⟨Hl, Hr, Hv0⟩, ⟨Hc, Hv1⟩⟩
  ihave Ha := (pointsTo_share (PosShare.mem_left_op_right fullShare)).2 $$ [Hl Hr]
  · isplitl [Hl] <;> iassumption
  iapply hseq $$ [Hb Ha Hv0 Hc Hv1]
  · isplitl [Hb]; · iexact Hb
    isplitl [Ha]; · iexact Ha
    isplitl [Hv0]; · iexact Hv0
    isplitl [Hc] <;> iassumption
  iintro ⟨Hb, Ha, Hv0, Hc, Hv1⟩
  imodintro
  iapply Hk
  ihave Ha' := (pointsTo_share (PosShare.mem_left_op_right fullShare)).1 $$ Ha
  icases Ha' with ⟨Hl, Hr⟩
  isplitl [Hl Hr Hv0]
  · isplitl [Hl]; · iexact Hl
    isplitl [Hr] <;> iassumption
  isplitl [Hc] <;> iassumption

set_option backward.isDefEq.respectTransparency.types false in
/-- @main is the region followed by the two host lines. -/
theorem hmainK : Pipeline.HMainK (Ix := Unit) (Name := ℕ) (U := UR sig nD τ) (Lvl := ℕ) cfgs (0 : Fin 1) (defs₀ (F := F)) Variants.none m (main (F := F))
    (V m) (fun _ => Pipeline.chain ([hostOps1].map StableHlo.seq)) :=
  Pipeline.hmain_around cfgs 0 defs₀ Variants.none m main [] [hostOps1] trivial trivial (fun c => (main_chain c).trans rfl)

set_option backward.isDefEq.respectTransparency.types false in
/-- For any values, from any memory whose counters are zero: every weakly fair execution of @main terminates; the result holds
    the host lines' value of what the sweep left in the accumulator array, and the argument array holds what it held. -/
theorem run_main :
    θ_run (defs (F := F)) (onTc (τ := τ) (main (F := F))) ⟨m, fun _ => 0, ρ⟩ (fun r => ∀ c : Dev nD,
      r.2.mem ((c.tc : Thread nD τ).loc main_v1) = Wfin m c (Proc.devRef .tc main_v1)
      ∧ r.2.mem ((c.tc : Thread nD τ).loc main_arg0) = m ((c.tc : Thread nD τ).loc main_arg0)) :=
  Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain ([hostOps1].map StableHlo.seq))
    (hbody := body_obligation m) (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmainK m) (hsplit := hsplit m) (hpf := fun _ k => k.elim0)
    (X := fun _ => iprop(emp)) (Y := fun _ => iprop(emp))
    (Z := fun c => Pipeline.unscopedRest spec0 c (V m c)) (Z' := fun c => Pipeline.unscopedRest spec0 c (fun b => Wfin m c (Proc.devRef .tc b)))
    (hX := fun c => by
      rw [Pipeline.unscopedRestP_none]
      iintro H; isplitr; · iempintro
      iexact H)
    (hin := fun c => by
      rw [show (dats m 0 c).Φ 0 = iprop(emp) from rfl]
      iintro ⟨-, -, -⟩; iempintro)
    (hout := fun c => by
      rw [scopedRest0_eq]; iintro -; isplitr <;> iempintro)
    (htail := htail m)
    (QY := fun c s => ∀ b ∈ ((Finset.univ.filter fun b : Ref sig .tc => ¬ b.isScoped) \ Finset.univ.image (Pipeline.arrRef spec0)),
      s.mem ((c.tc : Thread nD τ).loc b) = Wfin m c (Proc.devRef .tc b))
    (hY := fun c s' => by
      iintro ⟨-, HU, HSI⟩
      unfold Pipeline.unscopedRest
      imodintro
      iapply (pointsTo_read_all _ (fun b => (c.tc : Thread nD τ).loc b) (fun b => Wfin m c (Proc.devRef .tc b)) s')
      isplitl [HU] <;> iassumption)
    (hQ := fun s h c => ⟨(h c).2.2 main_v1 (by decide), ((h c).1 0).trans ((dats m 0 c).arrAt_in 0 rfl _)⟩)

/-- info: 'Cert.Kernel.Hand.run_main' depends on axioms: [propext, Classical.choice, Quot.sound] -/
#guard_msgs in #print axioms run_main

end Cert.Kernel.Hand

end
-- ==== Proof.KI.Defs.lean ====
/-
  What the three control cases of the sweep's body share: the arrays as the region finds them, a window's block
  read off its array, the two branch conditions of the body as propositions over the grid coordinates with their
  closed forms over the 48 grid points (the accumulator is reset at the first point of each half, t ≡ 0 mod 24;
  the last plane's in-plane differences are added at the very last point, t = 47), and the staging memrefs the
  pipeline hands the body at a point.
-/
import proofs.«145846_j44753559224580_2_alg».proof.Proof.Gen.KernelIdeal.Launch
import proofs.«145846_j44753559224580_2_alg».proof.Proof.Gen.KernelIdeal.Skeleton
import proofs.«145846_j44753559224580_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched (the region is the program's first line). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first branch of the body: "this is the first point of the half" (second grid coordinate zero). -/
abbrev cond0_0 (i : grid0.Coords) : Prop := (Scalar.cmpi .ne (Scalar.extui (Scalar.cmpi .eq (BitVec.ofNat 32 (i 1).val) 0#32)) 0#32) = 1#1
/-- The second branch: "this is the last point of the last half" (coordinates 1 and 23). -/
abbrev cond0_1 (i : grid0.Coords) : Prop := (Scalar.cmpi .ne (Scalar.extui (Scalar.andi (Scalar.cmpi .eq (BitVec.ofNat 32 (i 0).val) 1#32) (Scalar.cmpi .eq (BitVec.ofNat 32 (i 1).val) 23#32))) 0#32) = 1#1
/-- The first holds at the points t ≡ 0 (mod 24). -/
theorem hcond0_0 : ∀ t : Fin cfg0.N, cond0_0 (grid0.coords t) ↔ t.val % 24 = 0 :=
  (by decide +kernel : ∀ t : Fin grid0.N, cond0_0 (grid0.coords t) ↔ t.val % 24 = 0)
/-- The second holds at the last point only. -/
theorem hcond0_1 : ∀ t : Fin cfg0.N, cond0_1 (grid0.coords t) ↔ t.val = 47 :=
  (by decide +kernel : ∀ t : Fin grid0.N, cond0_1 (grid0.coords t) ↔ t.val = 47)

/-- One staging buffer of the output window, through which its contents are stated. -/
abbrev VO0_2 : View sig .tc .vmem S1x1x1 .f32 := (Memref.whole cc0_stg2_0 : Memref sig .tc .vmem S1x1x1 .f32).view
/-- Each window's current staging memref at point `t`, as the pipeline passes it, and its wholeness. -/
abbrev ms0_0 (t : Fin cfg0.N) : Memref sig .tc .vmem S8x385x385 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x385x385 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1 .f32 := win0_2.stage (cfg0.slots t 2)
abbrev hs0_2 (t : Fin cfg0.N) : (ms0_2 t).IsWhole := hstage0_2 ((cfg0.slots t 2).cast nbuf0_2)

end Cert.KernelIdeal.Hand

end
-- ==== Proof.KI.RunA.lean ====
/-
  The sweep's body run whole in one of its control cases (the first point of a half: the accumulator is reset, nothing more is added): on whole staging memrefs — the slab and the
  halo plane at their contents, the accumulator's buffer at anything — it runs to the end, leaves the two
  inputs as they were and the accumulator's buffer with the case's stores written over it; the list of stores is
  found by the run itself.
-/
import proofs.«145846_j44753559224580_2_alg».proof.Proof.KI.Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the accumulator's buffer in this case (last first), with the proof that the body runs
    to a continuation holding the inputs unchanged and the accumulator's buffer with them written. -/
noncomputable def kernelRun0_A (c : Dev nD) (i : grid0.Coords) (arg2 : Memref sig .tc .vmem S8x385x385 .f32) (harg2 : arg2.IsWhole) (arg3 : Memref sig .tc .vmem S1x385x385 .f32) (harg3 : arg3.IsWhole) (arg4 : Memref sig .tc .vmem S1x1x1 .f32) (harg4 : arg4.IsWhole) (hc0 : cond0_0 i) (hc1 : ¬cond0_1 i)
    (x0 : Vec F S8x385x385 .f32) (x1 : Vec F S1x385x385 .f32) :
    { L2 : List (View.Piece (Elt F) S1x1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__kernel i arg2 harg2 arg3 harg3 arg4 harg4) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.RunB.lean ====
/-
  The sweep's body run whole in one of its control cases (a middle point: the slab's total is added to the running accumulator): on whole staging memrefs — the slab and the
  halo plane at their contents, the accumulator's buffer at its running contents — it runs to the end, leaves the two
  inputs as they were and the accumulator's buffer with the case's stores written over it; the list of stores is
  found by the run itself.
-/
import proofs.«145846_j44753559224580_2_alg».proof.Proof.KI.Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the accumulator's buffer in this case (last first), with the proof that the body runs
    to a continuation holding the inputs unchanged and the accumulator's buffer with them written. -/
noncomputable def kernelRun0_B (c : Dev nD) (i : grid0.Coords) (arg2 : Memref sig .tc .vmem S8x385x385 .f32) (harg2 : arg2.IsWhole) (arg3 : Memref sig .tc .vmem S1x385x385 .f32) (harg3 : arg3.IsWhole) (arg4 : Memref sig .tc .vmem S1x1x1 .f32) (harg4 : arg4.IsWhole) (hc0 : ¬cond0_0 i) (hc1 : ¬cond0_1 i)
    (x0 : Vec F S8x385x385 .f32) (x1 : Vec F S1x385x385 .f32) (xo2 : Vec F S1x1x1 .f32) :
    { L2 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__kernel i arg2 harg2 arg3 harg3 arg4 harg4) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.RunC.lean ====
/-
  The sweep's body run whole in one of its control cases (the last point: the last plane's in-plane differences are added first, then the slab's total): on whole staging memrefs — the slab and the
  halo plane at their contents, the accumulator's buffer at its running contents — it runs to the end, leaves the two
  inputs as they were and the accumulator's buffer with the case's stores written over it; the list of stores is
  found by the run itself.
-/
import proofs.«145846_j44753559224580_2_alg».proof.Proof.KI.Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the accumulator's buffer in this case (last first), with the proof that the body runs
    to a continuation holding the inputs unchanged and the accumulator's buffer with them written. -/
noncomputable def kernelRun0_C (c : Dev nD) (i : grid0.Coords) (arg2 : Memref sig .tc .vmem S8x385x385 .f32) (harg2 : arg2.IsWhole) (arg3 : Memref sig .tc .vmem S1x385x385 .f32) (harg3 : arg3.IsWhole) (arg4 : Memref sig .tc .vmem S1x1x1 .f32) (harg4 : arg4.IsWhole) (hc0 : ¬cond0_0 i) (hc1 : cond0_1 i)
    (x0 : Vec F S8x385x385 .f32) (x1 : Vec F S1x385x385 .f32) (xo2 : Vec F S1x1x1 .f32) :
    { L2 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__kernel i arg2 harg2 arg3 harg3 arg4 harg4) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KI.Frame.lean ====
/-
  The sweep point by point. After the body at a point the accumulator's staging buffer holds the case's stores
  read back: at the first point of a half the reset followed by the slab's total; at a middle point the slab's
  total added to what the point before left; at the last point the last plane's in-plane differences and then
  the slab's total added to what the point before left. The two input windows are fetched at every point, so
  the body always finds the slab and its halo plane as the array holds them; the accumulator's block is written
  back only at the last point of each half, so between those the buffer carries the running total. From this
  the body's obligation at every point follows case by case.
-/
import proofs.«145846_j44753559224580_2_alg».proof.Proof.KI.RunA
import proofs.«145846_j44753559224580_2_alg».proof.Proof.KI.RunB
import proofs.«145846_j44753559224580_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulator's buffer -/

theorem cover0_A_2 (c : Dev nD) (i : grid0.Coords) (arg2 : Memref sig .tc .vmem S8x385x385 .f32) (harg2 : arg2.IsWhole) (arg3 : Memref sig .tc .vmem S1x385x385 .f32) (harg3 : arg3.IsWhole) (arg4 : Memref sig .tc .vmem S1x1x1 .f32) (harg4 : arg4.IsWhole) (hc0 : cond0_0 i) (hc1 : ¬cond0_1 i)
    (x0 : Vec F S8x385x385 .f32) (x1 : Vec F S1x385x385 .f32) (y : S1x1x1.Idx) :
    ∃ pc ∈ (kernelRun0_A c i arg2 harg2 arg3 harg3 arg4 harg4 hc0 hc1 x0 x1).1, y ∈ pc.1.set :=
  View.cover_of_tiledL (kernelRun0_A c i arg2 harg2 arg3 harg3 arg4 harg4 hc0 hc1 x0 x1).1 S1x1x1.size (by sl_kernel_rfl) y

def out0_A_2 (c : Dev nD) (i : grid0.Coords) (arg2 : Memref sig .tc .vmem S8x385x385 .f32) (harg2 : arg2.IsWhole) (arg3 : Memref sig .tc .vmem S1x385x385 .f32) (harg3 : arg3.IsWhole) (arg4 : Memref sig .tc .vmem S1x1x1 .f32) (harg4 : arg4.IsWhole) (hc0 : cond0_0 i) (hc1 : ¬cond0_1 i)
    (x0 : Vec F S8x385x385 .f32) (x1 : Vec F S1x385x385 .f32) : Vec F S1x1x1 .f32 :=
  VO0_2.read (Elt F) (VO0_2.writes (Elt F) VO0_2.junk (kernelRun0_A c i arg2 harg2 arg3 harg3 arg4 harg4 hc0 hc1 x0 x1).1)

theorem cover0_B_2 (c : Dev nD) (i : grid0.Coords) (arg2 : Memref sig .tc .vmem S8x385x385 .f32) (harg2 : arg2.IsWhole) (arg3 : Memref sig .tc .vmem S1x385x385 .f32) (harg3 : arg3.IsWhole) (arg4 : Memref sig .tc .vmem S1x1x1 .f32) (harg4 : arg4.IsWhole) (hc0 : ¬cond0_0 i) (hc1 : ¬cond0_1 i)
    (x0 : Vec F S8x385x385 .f32) (x1 : Vec F S1x385x385 .f32) (xo2 : Vec F S1x1x1 .f32) (y : S1x1x1.Idx) :
    ∃ pc ∈ (kernelRun0_B c i arg2 harg2 arg3 harg3 arg4 harg4 hc0 hc1 x0 x1 xo2).1, y ∈ pc.1.set :=
  View.cover_of_tiledL (kernelRun0_B c i arg2 harg2 arg3 harg3 arg4 harg4 hc0 hc1 x0 x1 xo2).1 S1x1x1.size (by sl_kernel_rfl) y

def out0_B_2 (c : Dev nD) (i : grid0.Coords) (arg2 : Memref sig .tc .vmem S8x385x385 .f32) (harg2 : arg2.IsWhole) (arg3 : Memref sig .tc .vmem S1x385x385 .f32) (harg3 : arg3.IsWhole) (arg4 : Memref sig .tc .vmem S1x1x1 .f32) (harg4 : arg4.IsWhole) (hc0 : ¬cond0_0 i) (hc1 : ¬cond0_1 i)
    (x0 : Vec F S8x385x385 .f32) (x1 : Vec F S1x385x385 .f32) (xo2 : Vec F S1x1x1 .f32) : Vec F S1x1x1 .f32 :=
  VO0_2.read (Elt F) (VO0_2.writes (Elt F) VO0_2.junk (kernelRun0_B c i arg2 harg2 arg3 harg3 arg4 harg4 hc0 hc1 x0 x1 xo2).1)

theorem cover0_C_2 (c : Dev nD) (i : grid0.Coords) (arg2 : Memref sig .tc .vmem S8x385x385 .f32) (harg2 : arg2.IsWhole) (arg3 : Memref sig .tc .vmem S1x385x385 .f32) (harg3 : arg3.IsWhole) (arg4 : Memref sig .tc .vmem S1x1x1 .f32) (harg4 : arg4.IsWhole) (hc0 : ¬cond0_0 i) (hc1 : cond0_1 i)
    (x0 : Vec F S8x385x385 .f32) (x1 : Vec F S1x385x385 .f32) (xo2 : Vec F S1x1x1 .f32) (y : S1x1x1.Idx) :
    ∃ pc ∈ (kernelRun0_C c i arg2 harg2 arg3 harg3 arg4 harg4 hc0 hc1 x0 x1 xo2).1, y ∈ pc.1.set :=
  View.cover_of_tiledL (kernelRun0_C c i arg2 harg2 arg3 harg3 arg4 harg4 hc0 hc1 x0 x1 xo2).1 S1x1x1.size (by sl_kernel_rfl) y

def out0_C_2 (c : Dev nD) (i : grid0.Coords) (arg2 : Memref sig .tc .vmem S8x385x385 .f32) (harg2 : arg2.IsWhole) (arg3 : Memref sig .tc .vmem S1x385x385 .f32) (harg3 : arg3.IsWhole) (arg4 : Memref sig .tc .vmem S1x1x1 .f32) (harg4 : arg4.IsWhole) (hc0 : ¬cond0_0 i) (hc1 : cond0_1 i)
    (x0 : Vec F S8x385x385 .f32) (x1 : Vec F S1x385x385 .f32) (xo2 : Vec F S1x1x1 .f32) : Vec F S1x1x1 .f32 :=
  VO0_2.read (Elt F) (VO0_2.writes (Elt F) VO0_2.junk (kernelRun0_C c i arg2 harg2 arg3 harg3 arg4 harg4 hc0 hc1 x0 x1 xo2).1)

/-! ## The input blocks as the body finds them -/

/-- The slab at point `t` as the staging buffer holds it once fetched (the part of the buffer a fetch does not fill, of which
    there is none at these points, at the zero word). -/
def x0blk (c : Dev nD) (t : Fin cfg0.N) : Vec F S8x385x385 .f32 :=
  win0_0.fill (grid0.coords t) (fun _ => Scalar.ofBits .f32 0#32) (iblk m c 0 t)
/-- The halo plane at point `t` likewise. -/
def x1blk (c : Dev nD) (t : Fin cfg0.N) : Vec F S1x385x385 .f32 :=
  win0_1.fill (grid0.coords t) (fun _ => Scalar.ofBits .f32 0#32) (iblk m c 1 t)

/-- No slab the sweep visits overhangs the array: slabs 0 … 47 end at plane 383. -/
theorem clip0_0 : ∀ (t : Fin cfg0.N) a, (cfg0.win 0).clip (grid0.coords t) a = none :=
  (by decide +kernel : ∀ (t : Fin grid0.N) a, win0_0.clip (grid0.coords t) a = none)

/-! ## What the accumulator's buffer holds after each point -/

theorem not_last_of_first {n : ℕ} (h : n % 24 = 0) : n ≠ 47 := by omega

/-- The running total, by recursion on the point. -/
def outsAt0 (c : Dev nD) : (n : ℕ) → n < cfg0.N → Vec F S1x1x1 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      ((hcond0_0 ⟨0, hn⟩).mpr (Nat.zero_mod _)) (fun h => not_last_of_first (Nat.zero_mod 24) ((hcond0_1 ⟨0, hn⟩).mp h)) (x0blk m c ⟨0, hn⟩) (x1blk m c ⟨0, hn⟩)
  | n + 1, hn =>
    if h0 : (n + 1) % 24 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        ((hcond0_0 ⟨n + 1, hn⟩).mpr h0) (fun h => not_last_of_first h0 ((hcond0_1 ⟨n + 1, hn⟩).mp h)) (x0blk m c ⟨n + 1, hn⟩) (x1blk m c ⟨n + 1, hn⟩)
    else if h1 : n + 1 = 47 then
      out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (fun h => h0 ((hcond0_0 ⟨n + 1, hn⟩).mp h)) ((hcond0_1 ⟨n + 1, hn⟩).mpr h1) (x0blk m c ⟨n + 1, hn⟩) (x1blk m c ⟨n + 1, hn⟩) (outsAt0 c n (Nat.lt_of_succ_lt hn))
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (fun h => h0 ((hcond0_0 ⟨n + 1, hn⟩).mp h)) (fun h => h1 ((hcond0_1 ⟨n + 1, hn⟩).mp h)) (x0blk m c ⟨n + 1, hn⟩) (x1blk m c ⟨n + 1, hn⟩) (outsAt0 c n (Nat.lt_of_succ_lt hn))

theorem outsAt0_A (c : Dev nD) (t : Fin cfg0.N) (h0 : t.val % 24 = 0) :
    outsAt0 m c t.val t.isLt = out0_A_2 c (grid0.coords t) (ms0_0 t) (hs0_0 t) (ms0_1 t) (hs0_1 t) (ms0_2 t) (hs0_2 t)
      ((hcond0_0 t).mpr h0) (fun h => not_last_of_first h0 ((hcond0_1 t).mp h)) (x0blk m c t) (x1blk m c t) := by
  obtain ⟨n, hn⟩ := t
  cases n with
  | zero => exact rfl
  | succ n => exact (dif_pos h0).trans rfl

theorem outsAt0_B (c : Dev nD) (t : Fin cfg0.N) (h0 : ¬t.val % 24 = 0) (h1 : ¬t.val = 47) :
    outsAt0 m c t.val t.isLt = out0_B_2 c (grid0.coords t) (ms0_0 t) (hs0_0 t) (ms0_1 t) (hs0_1 t) (ms0_2 t) (hs0_2 t)
      (fun h => h0 ((hcond0_0 t).mp h)) (fun h => h1 ((hcond0_1 t).mp h)) (x0blk m c t) (x1blk m c t)
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 24 = 0) (h1 : t.val = 47) :
    outsAt0 m c t.val t.isLt = out0_C_2 c (grid0.coords t) (ms0_0 t) (hs0_0 t) (ms0_1 t) (hs0_1 t) (ms0_2 t) (hs0_2 t)
      (fun h => h0 ((hcond0_0 t).mp h)) ((hcond0_1 t).mpr h1) (x0blk m c t) (x1blk m c t)
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The arrays as the region finds them; after the body at point `t` the two inputs' buffers at their blocks and the
    accumulator's at the running total; no invariant; nothing owed; the one array two input windows read is held half by
    each of them. -/
def dats (_ : Fin 1) (c : Dev nD) : Dat τ (Elt F) Unit ℕ (UR sig nD τ) ℕ cfg0 c where
  A w := V m c (Pipeline.arrRef spec0 w)
  after w t := match w with
    | ⟨0, _⟩ => x0blk m c t
    | ⟨1, _⟩ => x1blk m c t
    | ⟨2, _⟩ => outsAt0 m c t.val t.isLt
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = x0blk m c t := by dsimp only [dats]
theorem after0_1 (c : Dev nD) (t : Fin cfg0.N) : (dats m 0 c).after 1 t = x1blk m c t := by dsimp only [dats]
theorem after0_2 (c : Dev nD) (t : Fin cfg0.N) : (dats m 0 c).after 2 t = outsAt0 m c t.val t.isLt := by dsimp only [dats]

/-- Each input's buffer holds its block at every point: both are fetched at every point, and no fetch is cut. -/
theorem before0_0 (c : Dev nD) (t : Fin cfg0.N) (d) : (dats m 0 c).before 0 t d = x0blk m c t := by
  unfold Dat.before; rw [if_pos (fetch0_0 t)]
  exact (dats m 0 c).fetched_of_clip_none 0 t (clip0_0 t) d _
theorem before0_1 (c : Dev nD) (t : Fin cfg0.N) (d) : (dats m 0 c).before 1 t d = x1blk m c t := by
  unfold Dat.before; rw [if_pos (fetch0_1 t)]
  exact (dats m 0 c).fetched_of_clip_none 1 t (fun _ => rfl) d _

/-- At a point that is not the first of a half the accumulator's buffer holds what the point before left: it was
    not written back in between. -/
theorem before0_2_kept (c : Dev nD) (t : Fin cfg0.N) (h0 : ¬t.val % 24 = 0) (d) :
    (dats m 0 c).before 2 t d = outsAt0 m c (t.val - 1) (Nat.lt_of_le_of_lt (Nat.sub_le _ _) t.isLt) := by
  have hN : t.val < 48 := lt_of_lt_of_eq t.isLt (show cfg0.N = 48 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (∃ d, owns (c : Thread nD τ) (ms0_0 t) fullShare (win0_0.fill (grid0.coords t) d (win0_0.cut (grid0.coords t) ((dats m 0 c).after 0 t))))
    ∗ owns (c : Thread nD τ) (ms0_1 t) fullShare ((dats m 0 c).after 1 t)
    ∗ owns (c : Thread nD τ) (ms0_2 t) fullShare ((dats m 0 c).after 2 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  have hN : t.val < 48 := lt_of_lt_of_eq t.isLt (show cfg0.N = 48 from N_0)
  by_cases h0 : t.val % 24 = 0
  · rw [outsAt0_A m c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (fun h => not_last_of_first h0 ((hcond0_1 t).mp h)) (x0blk m c t) (x1blk m c t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]
    · iexists (x0blk m c t); rw [Window.fill_cut]; iexact H0
    isplitl [H1]; · iexact H1
    unfold owns; iexists _; isplitr
    swap; · iexact H2
    ipureintro; exact View.read_writes_of_cover _ _ _ _ _ (cover0_A_2 c _ _ _ _ _ _ _ _ _ _ _)
  · by_cases h1 : t.val = 47
    · rw [outsAt0_C m c t h0 h1]
      simp only [before0_2_kept m c t h0]
      unfold out0_C_2
      iintro ⟨HΦ, Ho, ⟨%d0, H0⟩, ⟨%d1, H1⟩, ⟨%d2, H2⟩⟩
      iapply ((kernelRun0_C c (grid0.coords t) _ _ _ _ _ _ (fun h => h0 ((hcond0_0 t).mp h)) ((hcond0_1 t).mpr h1) (x0blk m c t) (x1blk m c t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]
      · iexists (x0blk m c t); rw [Window.fill_cut]; iexact H0
      isplitl [H1]; · iexact H1
      unfold owns; iexists _; isplitr
      swap; · iexact H2
      ipureintro; exact View.read_writes_of_cover _ _ _ _ _ (cover0_C_2 c _ _ _ _ _ _ _ _ _ _ _ _)
    · rw [outsAt0_B m c t h0 h1]
      simp only [before0_2_kept m c t h0]
      unfold out0_B_2
      iintro ⟨HΦ, Ho, ⟨%d0, H0⟩, ⟨%d1, H1⟩, ⟨%d2, H2⟩⟩
      iapply ((kernelRun0_B c (grid0.coords t) _ _ _ _ _ _ (fun h => h0 ((hcond0_0 t).mp h)) (fun h => h1 ((hcond0_1 t).mp h)) (x0blk m c t) (x1blk m c t) _).2 Set.univ _)
      isplitl [H0]; · iexact H0
      isplitl [H1]; · iexact H1
      isplitl [H2]; · iexact H2
      iintro ⟨H0, H1, ⟨%e2, H2⟩⟩
      isplitl [HΦ]; · iexact HΦ
      isplitl [Ho]; · iexact Ho
      isplitl [H0]
      · iexists (x0blk m c t); rw [Window.fill_cut]; iexact H0
      isplitl [H1]; · iexact H1
      unfold owns; iexists _; isplitr
      swap; · iexact H2
      ipureintro; exact View.read_writes_of_cover _ _ _ _ _ (cover0_B_2 c _ _ _ _ _ _ _ _ _ _ _ _)

/-- The library's body obligation, at every point. -/
theorem body_obligation (c : Dev nD) : BodyObligationLoose (dats (F := F) m 0 c) (defs₀ (F := F)) Variants.none () Set.univ := fun t => by
  rw [bigSep_W0, bigSep_W0]
  exact sound_body m c t

end Cert.KernelIdeal.Hand

end
-- ==== Proof.KI.Launch.lean ====
/-
  The whole program run: the region (the sweep over its 48 grid points) followed by the two host lines that add
  the two halves' totals. One array is read through two input windows (the slabs and the halo planes); each window
  holds half of the array's share for the length of the region, and the halves are joined again at the region's
  exit, where the host lines read the accumulator array and write the result. Every weakly fair execution ends;
  the argument array ends as it began; the result holds the host lines' value of what the sweep left.
-/
import proofs.«145846_j44753559224580_2_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The device's buffers when the region ends: the accumulator array at what the write-backs left, the rest as launched. -/
def Wexit (c : Dev nD) : Valuation τ sig (Elt F) :=
  Function.update (fun b => m (c, b)) (Proc.devRef .tc main_v0) ((dats m 0 c).arrAt 2 cfg0.N)
/-- The device's buffers after the host lines. -/
def Wfin (c : Dev nD) : Valuation τ sig (Elt F) := StableHlo.after hostOps1 (Wexit m c)

theorem Wexit_v0 (c : Dev nD) : Wexit m c (Proc.devRef .tc main_v0) = (dats m 0 c).arrAt 2 cfg0.N := Function.update_self ..
theorem Wexit_arg0 (c : Dev nD) : Wexit m c (Proc.devRef .tc main_arg0) = m ((c : Thread nD τ).loc main_arg0) := Function.update_of_ne (by decide) ..
theorem Wexit_cst (c : Dev nD) : Wexit m c (Proc.devRef .tc main_cst) = m ((c : Thread nD τ).loc main_cst) := Function.update_of_ne (by decide) ..
theorem Wexit_v1 (c : Dev nD) : Wexit m c (Proc.devRef .tc main_v1) = m ((c : Thread nD τ).loc main_v1) := Function.update_of_ne (by decide) ..

/-- The host lines write the constant and the result only. -/
theorem hostOps1_keeps (b : Ref sig .tc) (hb : b ≠ main_cst) (hb' : b ≠ main_v1) :
    ∀ op ∈ (hostOps1 : List (HloOp τ sig (Elt F))), Proc.devRef .tc b ∉ op.writes := by
  intro op hop
  simp only [hostOps1, List.mem_cons, List.mem_nil_iff, or_false] at hop
  rcases hop with rfl | rfl
  all_goals simp only [StableHlo.nullary_writes, StableHlo.binary_writes, Finset.mem_singleton]
  · exact StableHlo.devRef_ne_of_ne hb
  · exact StableHlo.devRef_ne_of_ne hb'

theorem Wfin_arg0 (c : Dev nD) : Wfin m c (Proc.devRef .tc main_arg0) = m ((c : Thread nD τ).loc main_arg0) := by
  unfold Wfin; rw [StableHlo.after_of_forall_not_mem _ _ (hostOps1_keeps main_arg0 (by decide) (by decide)), Wexit_arg0]
theorem Wfin_v0 (c : Dev nD) : Wfin m c (Proc.devRef .tc main_v0) = (dats m 0 c).arrAt 2 cfg0.N := by
  unfold Wfin; rw [StableHlo.after_of_forall_not_mem _ _ (hostOps1_keeps main_v0 (by decide) (by decide)), Wexit_v0]

/-- The unscoped buffers one by one. -/
theorem unscopedBufs_eq (c : Dev nD) (Vv : (b : Ref sig .tc) → Buf (Elt F) ((c : Thread nD τ).loc b)) :
    (unscopedBufs c Vv : sProp 𝕄)
      = iprop((((c : Thread nD τ).loc main_arg0) ↦{fullShare} Vv main_arg0) ∗ (((c : Thread nD τ).loc main_v0) ↦{fullShare} Vv main_v0)
          ∗ (((c : Thread nD τ).loc main_cst) ↦{fullShare} Vv main_cst) ∗ (((c : Thread nD τ).loc main_v1) ↦{fullShare} Vv main_v1)) := by
  unfold unscopedBufs
  rw [bigSep_eq_bigSepL_of_eq [main_arg0, main_v0, main_cst, main_v1] (by decide) (by decide)]
  rfl

/-- The buffers behind the windows' arrays: the argument and the accumulator array. -/
theorem arrBufs_eq (c : Dev nD) (Vv : (b : Ref sig .tc) → Buf (Elt F) ((c : Thread nD τ).loc b)) :
    (Pipeline.arrBufs spec0 c Vv : sProp 𝕄)
      = iprop((((c : Thread nD τ).loc main_arg0) ↦{fullShare} Vv main_arg0) ∗ (((c : Thread nD τ).loc main_v0) ↦{fullShare} Vv main_v0)) := by
  unfold Pipeline.arrBufs
  rw [bigSep_eq_bigSepL_of_eq [main_arg0, main_v0] (by decide) (by decide)]
  rfl

/-- The windows' arrays as the proof data holds them: the argument array half by each input window, the accumulator
    array whole. -/
theorem arrays_eq3 (c : Dev nD) (Fa : (w : Fin cfg0.W) → Buf (Elt F) ((cfg0.win w).arr.view.loc (c : Thread nD τ))) :
    ((dats m 0 c).arrays Fa : sProp 𝕄)
      = iprop((((c : Thread nD τ).loc main_arg0) ↦{fullShare.left} Fa 0) ∗ (((c : Thread nD τ).loc main_arg0) ↦{fullShare.right} Fa 1)
          ∗ (((c : Thread nD τ).loc main_v0) ↦{fullShare} Fa 2)) := by
  unfold Dat.arrays
  rw [bigSep_W0, (arr_whole0 0).set_eq_univ, (arr_whole0 2).set_eq_univ]
  rfl

/-- The arrays as the region leaves them: the argument array untouched, the accumulator array at what the write-backs left. -/
theorem arrays_exit (c : Dev nD) :
    ((dats m 0 c).arrays ((dats m 0 c).arrAt · cfg0.N) : sProp 𝕄)
      = iprop((((c : Thread nD τ).loc main_arg0) ↦{fullShare.left} m ((c : Thread nD τ).loc main_arg0))
          ∗ (((c : Thread nD τ).loc main_arg0) ↦{fullShare.right} m ((c : Thread nD τ).loc main_arg0))
          ∗ (((c : Thread nD τ).loc main_v0) ↦{fullShare} (dats m 0 c).arrAt 2 cfg0.N)) := by
  rw [arrays_eq3]
  rw [(dats m 0 c).arrAt_in 0 rfl, (dats m 0 c).arrAt_in 1 rfl]
  rfl

/-- Entry: the argument array is dealt in halves to the two input windows. -/
theorem hsplit (c : Dev nD) : (Pipeline.arrBufs spec0 c (V m c) : sProp 𝕄) ⊢ (dats m 0 c).arrays ((dats m 0 c).arrAt · 0) := by
  rw [arrBufs_eq, arrays_eq3]
  iintro ⟨Ha, Hv⟩
  ihave Ha' := (pointsTo_share (PosShare.mem_left_op_right fullShare)).1 $$ Ha
  icases Ha' with ⟨Hl, Hr⟩
  isplitl [Hl]; · iexact Hl
  isplitl [Hr]; · iexact Hr
  iexact Hv

theorem hostOps1_subU : ∀ ops ∈ ([hostOps1] : List (List (HloOp τ sig (Elt F)))), ∀ op ∈ ops, op.bufs ⊆ Pipeline.ucRefs τ sig := by
  intro ops hops op hop
  simp only [List.mem_cons, List.mem_nil_iff, or_false] at hops
  subst hops
  exact Pipeline.sub_ucRefs op ((List.forall_iff_forall_mem.mp hostOps1_sub) op hop)

theorem hostOps1_freshU : ∀ ops ∈ ([hostOps1] : List (List (HloOp τ sig (Elt F)))), ∀ op ∈ ops, op.fresh = ∅ := by
  intro ops hops op hop
  simp only [List.mem_cons, List.mem_nil_iff, or_false] at hops
  subst hops
  simp only [hostOps1, List.mem_cons, List.mem_nil_iff, or_false] at hop
  rcases hop with rfl | rfl <;> rfl

/-- The host lines after the region: from the region's exit — the argument array's halves joined again, the accumulator
    array as the sweep left it — they run to the result. -/
theorem htail (c : Dev nD) (Q' : PUnit → sProp 𝕄) :
    iprop((iprop((dats m 0 c).arrays ((dats m 0 c).arrAt · cfg0.N) ∗ Pipeline.unscopedRest spec0 c (fun b => Wfin m c (Proc.devRef .tc b))) -∗ Q' ⟨⟩)
        ∗ boundary (c : Thread nD τ) ∗ (dats m 0 c).arrays ((dats m 0 c).arrAt · cfg0.N) ∗ Pipeline.unscopedRest spec0 c (V m c))
      ⊢ wp frame (wpE (defs (F := F)) (Variants.lift Variants.none) (c : Thread nD τ) none) Set.univ (Pipeline.chain ([hostOps1].map StableHlo.seq)) Q' := by
  have hU : ∀ W : Valuation τ sig (Elt F), (StableHlo.held (c : Thread nD τ) (Pipeline.ucRefs τ sig) W : sProp 𝕄)
      = iprop((((c : Thread nD τ).loc main_arg0) ↦{fullShare} W (Proc.devRef .tc main_arg0)) ∗ (((c : Thread nD τ).loc main_v0) ↦{fullShare} W (Proc.devRef .tc main_v0))
          ∗ (((c : Thread nD τ).loc main_cst) ↦{fullShare} W (Proc.devRef .tc main_cst)) ∗ (((c : Thread nD τ).loc main_v1) ↦{fullShare} W (Proc.devRef .tc main_v1))) := fun W => by
    rw [← Pipeline.unscopedBufs_held, unscopedBufs_eq]
  have hfl : StableHlo.after ([hostOps1] : List (List (HloOp τ sig (Elt F)))).flatten (Wexit m c) = Wfin m c := by
    simp only [List.flatten_cons, List.flatten_nil, List.append_nil]; rfl
  have hseq := Pipeline.wp_seqs_then (Ix := Unit) (Name := ℕ) (U := UR sig nD τ) (Lvl := ℕ) (fun p => (cfgs p).toPCfg) (defs₀ (F := F)) Variants.none c
    (Pipeline.ucRefs τ sig) [] [hostOps1] hostOps1_subU hostOps1_freshU (Wexit m c) (K := Q')
  rw [Pipeline.chain_nil, wp_pure, List.append_nil, hfl, hU, hU, Wexit_arg0, Wexit_v0, Wexit_cst, Wexit_v1, Wfin_arg0, Wfin_v0] at hseq
  rw [arrays_exit, unscopedRest0_eq, unscopedRest0_eq]
  iintro ⟨Hk, Hb, ⟨Hl, Hr, Hv0⟩, ⟨Hc, Hv1⟩⟩
  ihave Ha := (pointsTo_share (PosShare.mem_left_op_right fullShare)).2 $$ [Hl Hr]
  · isplitl [Hl] <;> iassumption
  iapply hseq $$ [Hb Ha Hv0 Hc Hv1]
  · isplitl [Hb]; · iexact Hb
    isplitl [Ha]; · iexact Ha
    isplitl [Hv0]; · iexact Hv0
    isplitl [Hc] <;> iassumption
  iintro ⟨Hb, Ha, Hv0, Hc, Hv1⟩
  imodintro
  iapply Hk
  ihave Ha' := (pointsTo_share (PosShare.mem_left_op_right fullShare)).1 $$ Ha
  icases Ha' with ⟨Hl, Hr⟩
  isplitl [Hl Hr Hv0]
  · isplitl [Hl]; · iexact Hl
    isplitl [Hr] <;> iassumption
  isplitl [Hc] <;> iassumption

set_option backward.isDefEq.respectTransparency.types false in
/-- @main is the region followed by the two host lines. -/
theorem hmainK : Pipeline.HMainK (Ix := Unit) (Name := ℕ) (U := UR sig nD τ) (Lvl := ℕ) cfgs (0 : Fin 1) (defs₀ (F := F)) Variants.none m (main (F := F))
    (V m) (fun _ => Pipeline.chain ([hostOps1].map StableHlo.seq)) :=
  Pipeline.hmain_around cfgs 0 defs₀ Variants.none m main [] [hostOps1] trivial trivial (fun c => (main_chain c).trans rfl)

set_option backward.isDefEq.respectTransparency.types false in
/-- For any values, from any memory whose counters are zero: every weakly fair execution of @main terminates; the result holds
    the host lines' value of what the sweep left in the accumulator array, and the argument array holds what it held. -/
theorem run_main :
    θ_run (defs (F := F)) (onTc (τ := τ) (main (F := F))) ⟨m, fun _ => 0, ρ⟩ (fun r => ∀ c : Dev nD,
      r.2.mem ((c.tc : Thread nD τ).loc main_v1) = Wfin m c (Proc.devRef .tc main_v1)
      ∧ r.2.mem ((c.tc : Thread nD τ).loc main_arg0) = m ((c.tc : Thread nD τ).loc main_arg0)) :=
  Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain ([hostOps1].map StableHlo.seq))
    (hbody := body_obligation m) (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmainK m) (hsplit := hsplit m) (hpf := fun _ k => k.elim0)
    (X := fun _ => iprop(emp)) (Y := fun _ => iprop(emp))
    (Z := fun c => Pipeline.unscopedRest spec0 c (V m c)) (Z' := fun c => Pipeline.unscopedRest spec0 c (fun b => Wfin m c (Proc.devRef .tc b)))
    (hX := fun c => by
      rw [Pipeline.unscopedRestP_none]
      iintro H; isplitr; · iempintro
      iexact H)
    (hin := fun c => by
      rw [show (dats m 0 c).Φ 0 = iprop(emp) from rfl]
      iintro ⟨-, -, -⟩; iempintro)
    (hout := fun c => by
      rw [scopedRest0_eq]; iintro -; isplitr <;> iempintro)
    (htail := htail m)
    (QY := fun c s => ∀ b ∈ ((Finset.univ.filter fun b : Ref sig .tc => ¬ b.isScoped) \ Finset.univ.image (Pipeline.arrRef spec0)),
      s.mem ((c.tc : Thread nD τ).loc b) = Wfin m c (Proc.devRef .tc b))
    (hY := fun c s' => by
      iintro ⟨-, HU, HSI⟩
      unfold Pipeline.unscopedRest
      imodintro
      iapply (pointsTo_read_all _ (fun b => (c.tc : Thread nD τ).loc b) (fun b => Wfin m c (Proc.devRef .tc b)) s')
      isplitl [HU] <;> iassumption)
    (hQ := fun s h c => ⟨(h c).2.2 main_v1 (by decide), ((h c).1 0).trans ((dats m 0 c).arrAt_in 0 rfl _)⟩)

/-- info: 'Cert.KernelIdeal.Hand.run_main' depends on axioms: [propext, Classical.choice, Quot.sound] -/
#guard_msgs in #print axioms run_main

end Cert.KernelIdeal.Hand

end
-- ==== Proof.Spec.lean ====
/-
  The occupancy-connectivity loss as one function of a 385 × 385 × 385 array of extended reals, and the same
  quantity cut into the pieces a sweep over slabs of eight planes computes.

  For an array `A` and the distance `dd p q = |p - q|`, the loss is the sum over all pairs of axis-neighbours,
  one sum per axis (`lx`, `ly`, `lz`). A slab `g` holds planes `8g … 8g+7`; its own contribution is the
  seven plane-to-plane differences inside it (`inner`), the difference between its last plane and the first
  plane of the next slab (`bound`, the next slab's first plane being the slab's halo), and the in-plane
  differences along the two other axes (`alongY`, `alongZ`). The 48 slabs cover planes `0 … 383`; the in-plane
  differences of the last plane, 384, which is only ever a halo, are `planeY` and `planeZ` of slab 47's halo.
-/
import Idealize.ShloMosaic.PureOps.Ideal
import Idealize.ShloMosaic.Lib.ValueIdx

noncomputable section

open scoped BigOperators

namespace Cert.Occ

open Idealize.ShloMosaic Idealize.ShloMosaic.ValueIdx

/-- The absolute difference `|p - q|` on the extended reals, as the float operations read it: `max (p - q) (-(p - q))`. -/
def dd (p q : EReal) : EReal := max (p - q) (-(p - q))

/-- A 385³ array by its three coordinates. -/
abbrev Arr3 := Fin 385 → Fin 385 → Fin 385 → EReal
/-- A slab of eight planes. -/
abbrev Slab := Fin 8 → Fin 385 → Fin 385 → EReal
/-- One plane. -/
abbrev Plane := Fin 385 → Fin 385 → EReal

/-- Differences between neighbours along the first axis, summed. -/
def lx (A : Arr3) : EReal := ∑ x : Fin 384, ∑ y : Fin 385, ∑ z : Fin 385, dd (A x.succ y z) (A x.castSucc y z)
/-- Differences between neighbours along the second axis, summed. -/
def ly (A : Arr3) : EReal := ∑ x : Fin 385, ∑ y : Fin 384, ∑ z : Fin 385, dd (A x y.succ z) (A x y.castSucc z)
/-- Differences between neighbours along the third axis, summed. -/
def lz (A : Arr3) : EReal := ∑ x : Fin 385, ∑ y : Fin 385, ∑ z : Fin 384, dd (A x y z.succ) (A x y z.castSucc)
/-- The loss. -/
def loss (A : Arr3) : EReal := lx A + ly A + lz A

/-- The seven plane-to-plane differences inside a slab. -/
def inner (B : Slab) : EReal := ∑ r : Fin 7, ∑ y : Fin 385, ∑ z : Fin 385, dd (B r.succ y z) (B r.castSucc y z)
/-- The difference between the halo plane and the slab's last plane. -/
def bound (B : Slab) (H : Plane) : EReal := ∑ y : Fin 385, ∑ z : Fin 385, dd (H y z) (B 7 y z)
/-- A slab's differences along the second axis. -/
def alongY (B : Slab) : EReal := ∑ r : Fin 8, ∑ y : Fin 384, ∑ z : Fin 385, dd (B r y.succ z) (B r y.castSucc z)
/-- A slab's differences along the third axis. -/
def alongZ (B : Slab) : EReal := ∑ r : Fin 8, ∑ y : Fin 385, ∑ z : Fin 384, dd (B r y z.succ) (B r y z.castSucc)
/-- One plane's differences along the second axis. -/
def planeY (H : Plane) : EReal := ∑ y : Fin 384, ∑ z : Fin 385, dd (H y.succ z) (H y.castSucc z)
/-- One plane's differences along the third axis. -/
def planeZ (H : Plane) : EReal := ∑ y : Fin 385, ∑ z : Fin 384, dd (H y z.succ) (H y z.castSucc)
/-- What one slab adds to the running total, in the order it is added up. -/
def slabTotal (B : Slab) (H : Plane) : EReal := inner B + bound B H + alongY B + alongZ B

/-- Plane number `k` of the array, the number taken modulo 385 (only `k < 385` is ever asked). -/
def row (k : ℕ) : Fin 385 := ⟨k % 385, Nat.mod_lt _ (by norm_num)⟩
/-- Slab `g` of an array: planes `8g … 8g+7`. -/
def slab (A : Arr3) (g : ℕ) : Slab := fun r y z => A (row (8 * g + r.val)) y z
/-- Slab `g`'s halo: plane `8g + 8`. -/
def halo (A : Arr3) (g : ℕ) : Plane := fun y z => A (row (8 * g + 8)) y z

/-- A rank-3 array of extended reals by its coordinates. -/
def arrOf (a : (⟨3, ![385, 385, 385]⟩ : Shape).Idx → EReal) : Arr3 := fun x y z => a (ix3 x y z)
/-- A staged slab by its coordinates. -/
def slabOf (v : (⟨3, ![8, 385, 385]⟩ : Shape).Idx → EReal) : Slab := fun r y z => v (ix3 r y z)
/-- A staged halo plane by its coordinates. -/
def planeOf (v : (⟨3, ![1, 385, 385]⟩ : Shape).Idx → EReal) : Plane := fun y z => v (ix3 0 y z)

end Cert.Occ

end
-- ==== Proof.KI.Blocks.lean ====
/-
  The blocks the sweep stages are the array's slabs and halo planes, and the accumulator array after the sweep
  holds, in each of its two entries, what the last point of that half left in the accumulator's buffer.

  At point `t` the first window's block is block `(t, 0, 0)` of blocks of `8 × 385 × 385`: its element
  `(r, y, z)` sits in the array at `(8t + r, y, z)`. No block overhangs the array at these points, so the staged
  slab is the block at every index. The second window's block is block `((t + 1) · 8, 0, 0)` of blocks of
  `1 × 385 × 385`: plane `8t + 8`. The third window's block is the single entry `(t / 24, 0, 0)` of the
  accumulator array; it is written back exactly at the points `t ≡ 23 (mod 24)`, the last of each half.
-/
import proofs.«145846_j44753559224580_2_alg».proof.Proof.KI.Frame
import proofs.«145846_j44753559224580_2_alg».proof.Proof.Spec
import Idealize.ShloMosaic.Lib.Pipeline.Value
import Idealize.ShloMosaic.Lib.ValueIdx

set_option maxRecDepth 16384

noncomputable section

namespace Cert.KIValue

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx

variable {F : FTy → Type} [FloatOps F]

variable (m : (ℓ : Loc nD τ sig) → Buf (Elt F) ℓ) (c : Dev nD)

/-! ## The block indices over the grid -/

/-- The first window's block index at point `t` is `(t, 0, 0)`. -/
theorem index0 : ∀ t : Fin cfg0.N, win0_0.index t (0 : Fin 3) = t.val ∧ win0_0.index t 1 = 0 ∧ win0_0.index t 2 = 0 :=
  (by decide +kernel : ∀ t : Fin grid0.N, win0_0.index t (0 : Fin 3) = t.val ∧ win0_0.index t 1 = 0 ∧ win0_0.index t 2 = 0)

/-- The second window's block index at point `t` is `((t + 1) · 8, 0, 0)`. -/
theorem index1 : ∀ t : Fin cfg0.N, win0_1.index t (0 : Fin 3) = (t.val + 1) * 8 ∧ win0_1.index t 1 = 0 ∧ win0_1.index t 2 = 0 :=
  (by decide +kernel : ∀ t : Fin grid0.N, win0_1.index t (0 : Fin 3) = (t.val + 1) * 8 ∧ win0_1.index t 1 = 0 ∧ win0_1.index t 2 = 0)

/-- The third window's block index at point `t` is `(t / 24, 0, 0)`. -/
theorem index2 : ∀ t : Fin cfg0.N, win0_2.index t (0 : Fin 3) = t.val / 24 ∧ win0_2.index t 1 = 0 ∧ win0_2.index t 2 = 0 :=
  (by decide +kernel : ∀ t : Fin grid0.N, win0_2.index t (0 : Fin 3) = t.val / 24 ∧ win0_2.index t 1 = 0 ∧ win0_2.index t 2 = 0)

/-! ## The staged slab and halo plane at an index -/

/-- The staged slab at `(r, y, z)` is the array at `(8t + r, y, z)`. -/
theorem x0blk_apply (t : Fin cfg0.N) (j : S8x385x385.Idx) (k : S385x385x385.Idx)
    (hk0 : (k 0).val = 8 * t.val + (j 0).val) (hk1 : (k 1).val = (j 1).val) (hk2 : (k 2).val = (j 2).val) :
    x0blk (F := F) m c t j = (m ((c : Thread nD τ).loc main_arg0) : S385x385x385.Idx → Elt F .f32) k := by
  have hm : win0_0.moved (grid0.coords t) j = true := (win0_0.moved_iff _ j).mpr fun a => by
    have := (j a).isLt; unfold Window.xsize; rw [clip0_0 t a]; exact this
  obtain ⟨hi0, hi1, hi2⟩ := index0 t
  unfold x0blk Window.fill
  rw [dif_pos hm]
  unfold iblk
  rw [View.read_apply]
  show V m c main_arg0 _ = m (c.tc.loc main_arg0) _
  unfold V
  congr 1
  funext a
  apply Fin.ext
  match a with
  | ⟨0, _⟩ => show win0_0.index t 0 * 8 + 1 * (j 0).val = (k 0).val; rw [hi0, hk0]; omega
  | ⟨1, _⟩ => show win0_0.index t 1 * 385 + 1 * (j 1).val = (k 1).val; rw [hi1, hk1]; omega
  | ⟨2, _⟩ => show win0_0.index t 2 * 385 + 1 * (j 2).val = (k 2).val; rw [hi2, hk2]; omega

/-- The staged halo plane at `(0, y, z)` is the array at `(8t + 8, y, z)`. -/
theorem x1blk_apply (t : Fin cfg0.N) (j : S1x385x385.Idx) (k : S385x385x385.Idx)
    (hk0 : (k 0).val = 8 * t.val + 8) (hk1 : (k 1).val = (j 1).val) (hk2 : (k 2).val = (j 2).val) :
    x1blk (F := F) m c t j = (m ((c : Thread nD τ).loc main_arg0) : S385x385x385.Idx → Elt F .f32) k := by
  have hm : win0_1.moved (grid0.coords t) j = true := (win0_1.moved_iff _ j).mpr fun a => (j a).isLt
  obtain ⟨hi0, hi1, hi2⟩ := index1 t
  have hj0 : (j 0).val < 1 := (j 0).isLt
  unfold x1blk Window.fill
  rw [dif_pos hm]
  unfold iblk
  rw [View.read_apply]
  show V m c main_arg0 _ = m (c.tc.loc main_arg0) _
  unfold V
  congr 1
  funext a
  apply Fin.ext
  match a with
  | ⟨0, _⟩ => show win0_1.index t 0 * 1 + 1 * (j 0).val = (k 0).val; rw [hi0, hk0]; omega
  | ⟨1, _⟩ => show win0_1.index t 1 * 385 + 1 * (j 1).val = (k 1).val; rw [hi1, hk1]; omega
  | ⟨2, _⟩ => show win0_1.index t 2 * 385 + 1 * (j 2).val = (k 2).val; rw [hi2, hk2]; omega

/-! ## The accumulator array after the sweep -/

/-- The running total depends on the point only through its number. -/
theorem outsAt0_congr {n n' : ℕ} (h : n = n') (hn : n < cfg0.N) (hn' : n' < cfg0.N) :
    outsAt0 (F := F) m c n hn = outsAt0 (F := F) m c n' hn' := by
  subst h; rfl

/-- The last point of half `j 0` is a point of the grid. -/
theorem last_lt (j : S2x1x1.Idx) : 24 * (j 0).val + 23 < cfg0.N := by
  have h : (j 0).val < 2 := (j 0).isLt
  rw [show cfg0.N = 48 from N_0]; omega

/-- What the accumulator array ends holding: entry `j` is what the last point of half `j 0` left in the buffer. -/
def finalAcc : S2x1x1.Idx → Elt F .f32 :=
  fun j => outsAt0 (F := F) m c (24 * (j 0).val + 23) (last_lt j) (ix3 0 0 0)

/-- What a write-back writes is its block of `finalAcc`: the block at a point `t ≡ 23 (mod 24)` is the single
    entry `(t / 24, 0, 0)`, and `24 · (t / 24) + 23 = t`. -/
theorem flushed_eq (t : Fin cfg0.N) (hf : (cfg0.win 2).flush t = true) :
    (dats (F := F) m 0 c).flushed 2 t = ((cfg0.win 2).blk t).view.read (Elt F) (finalAcc (F := F) m c) := by
  have hN : t.val < 48 := lt_of_lt_of_eq t.isLt (show cfg0.N = 48 from N_0)
  have h23 : t.val % 24 = 23 := (flush0_2 t).mp hf
  obtain ⟨hi0, hi1, hi2⟩ := index2 t
  show (cfg0.win 2).cut (grid0.coords t) ((dats (F := F) m 0 c).after 2 t) = _
  rw [after0_2]
  funext y
  rw [View.read_apply]
  have hy0 : (y 0).val < 1 := (y 0).isLt
  have hy1 : (y 1).val < 1 := (y 1).isLt
  have hy2 : (y 2).val < 1 := (y 2).isLt
  have hx : win0_2.xinj (grid0.coords t) y = ix3 0 0 0 := by
    funext a
    apply Fin.ext
    match a with
    | ⟨0, _⟩ => show (y 0).val = 0; omega
    | ⟨1, _⟩ => show (y 1).val = 0; omega
    | ⟨2, _⟩ => show (y 2).val = 0; omega
  show outsAt0 (F := F) m c t.val t.isLt (win0_2.xinj (grid0.coords t) y) = finalAcc (F := F) m c (((cfg0.win 2).blk t).view.emb y)
  rw [hx]
  unfold finalAcc
  refine congrFun (outsAt0_congr (F := F) m c ?_ _ _) _
  show t.val = 24 * (win0_2.index t 0 * 1 + 1 * (y 0).val) + 23
  rw [hi0]; omega

/-- Every entry of the accumulator array is in the block written back at the last point of its half. -/
theorem cover (i : S2x1x1.Idx) :
    ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 1 := (i 2).isLt
  have hlt : 24 * (i 0).val + 23 < 48 := by omega
  refine ⟨⟨24 * (i 0).val + 23, last_lt i⟩, (flush0_2 _).mpr (by show (24 * (i 0).val + 23) % 24 = 23; omega), ?_⟩
  obtain ⟨hi0, hi1, hi2⟩ := index2 ⟨24 * (i 0).val + 23, last_lt i⟩
  show i ∈ ((View.whole main_v0).slice (win0_2.rect ⟨24 * (i 0).val + 23, last_lt i⟩)).set
  rw [View.set_slice_whole, Rect.mem_set_unit]
  intro a
  match a with
  | ⟨0, _⟩ =>
    show win0_2.index ⟨24 * (i 0).val + 23, last_lt i⟩ 0 * 1 ≤ (i 0).val ∧ (i 0).val < win0_2.index ⟨24 * (i 0).val + 23, last_lt i⟩ 0 * 1 + 1
    rw [hi0]; show (24 * (i 0).val + 23) / 24 * 1 ≤ (i 0).val ∧ (i 0).val < (24 * (i 0).val + 23) / 24 * 1 + 1; omega
  | ⟨1, _⟩ =>
    show win0_2.index ⟨24 * (i 0).val + 23, last_lt i⟩ 1 * 1 ≤ (i 1).val ∧ (i 1).val < win0_2.index ⟨24 * (i 0).val + 23, last_lt i⟩ 1 * 1 + 1
    rw [hi1]; omega
  | ⟨2, _⟩ =>
    show win0_2.index ⟨24 * (i 0).val + 23, last_lt i⟩ 2 * 1 ≤ (i 2).val ∧ (i 2).val < win0_2.index ⟨24 * (i 0).val + 23, last_lt i⟩ 2 * 1 + 1
    rw [hi2]; omega

/-- The accumulator array after the sweep, as a whole. -/
theorem arrAt_final_eq : (dats (F := F) m 0 c).arrAt 2 cfg0.N = finalAcc (F := F) m c :=
  (dats (F := F) m 0 c).arrAt_eq_of_cover 2 (finalAcc (F := F) m c) (flushed_eq m c) (cover)

/-! ## The staged blocks are the array's slab and halo -/

section AtIdeal

variable (m : (ℓ : Loc nD τ sig) → Buf (Elt Ideal) ℓ) (c : Dev nD)

/-- The slab staged at point `t` is slab `t` of the array. -/
theorem slab_x0blk (t : Fin cfg0.N) :
    Cert.Occ.slabOf (x0blk (F := Ideal) m c t)
      = Cert.Occ.slab (Cert.Occ.arrOf (m ((c : Thread nD τ).loc main_arg0))) t.val := by
  have hN : t.val < 48 := lt_of_lt_of_eq t.isLt (show cfg0.N = 48 from N_0)
  funext r y z
  have hr : r.val < 8 := r.isLt
  show x0blk (F := Ideal) m c t (ix3 r y z) = (m ((c : Thread nD τ).loc main_arg0) : S385x385x385.Idx → Elt Ideal .f32) (ix3 (Cert.Occ.row (8 * t.val + r.val)) y z)
  exact x0blk_apply (F := Ideal) m c t (ix3 r y z) (ix3 (Cert.Occ.row (8 * t.val + r.val)) y z)
    (Nat.mod_eq_of_lt (by omega)) rfl rfl

/-- The halo plane staged at point `t` is slab `t`'s halo: plane `8t + 8` of the array. -/
theorem plane_x1blk (t : Fin cfg0.N) :
    Cert.Occ.planeOf (x1blk (F := Ideal) m c t)
      = Cert.Occ.halo (Cert.Occ.arrOf (m ((c : Thread nD τ).loc main_arg0))) t.val := by
  have hN : t.val < 48 := lt_of_lt_of_eq t.isLt (show cfg0.N = 48 from N_0)
  funext y z
  show x1blk (F := Ideal) m c t (ix3 0 y z) = (m ((c : Thread nD τ).loc main_arg0) : S385x385x385.Idx → Elt Ideal .f32) (ix3 (Cert.Occ.row (8 * t.val + 8)) y z)
  exact x1blk_apply (F := Ideal) m c t (ix3 0 y z) (ix3 (Cert.Occ.row (8 * t.val + 8)) y z)
    (Nat.mod_eq_of_lt (by omega)) rfl rfl

/-- Entry `j` of the accumulator array after the sweep is what the last point of half `j 0`, point
    `24 · (j 0) + 23`, left in the accumulator's buffer. -/
theorem arrAt_final (j : S2x1x1.Idx) :
    (dats (F := Ideal) m 0 c).arrAt 2 cfg0.N j
      = outsAt0 (F := Ideal) m c (24 * (j 0).val + 23) (last_lt j) (ix3 0 0 0) :=
  congrFun (arrAt_final_eq (F := Ideal) m c) j

end AtIdeal

end Cert.KIValue

end
-- ==== Proof.KI.Pieces.lean ====
/-
  What each control case's stores leave in the accumulator's one-element buffer, as the body's arithmetic of the
  slab, the halo plane and the running total: the last store covers the whole buffer, so the buffer holds that
  store's value; a load of the buffer after an earlier whole store reads that store's value; a load of an input
  buffer reads its contents.
-/
import proofs.«145846_j44753559224580_2_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl

/-- First point of a half: the reset, then the slab's total added to the zero just stored. -/
theorem out0_A_2_eq (c : Dev nD) (i : grid0.Coords) (arg2 : Memref sig .tc .vmem S8x385x385 .f32) (harg2 : arg2.IsWhole) (arg3 : Memref sig .tc .vmem S1x385x385 .f32) (harg3 : arg3.IsWhole) (arg4 : Memref sig .tc .vmem S1x1x1 .f32) (harg4 : arg4.IsWhole) (hc0 : cond0_0 i) (hc1 : ¬cond0_1 i)
    (x0 : Vec F S8x385x385 .f32) (x1 : Vec F S1x385x385 .f32) :
    out0_A_2 c i arg2 harg2 arg3 harg3 arg4 harg4 hc0 hc1 x0 x1
      = k0_pay2 (k0_pay5 x0) (k0_pay6 x0 x1) (k0_pay7 x0) (k0_pay8 x0) (k0_pay3 (F := F)) := by
  unfold out0_A_2
  rw [View.read_writes_junk_eq_canon]
  unfold kernelRun0_A
  dsimp only
  sl_unfold_words
  rw [View.canon_cons_unit_zero hz3]
  simp only [View.readAt_eq_ld, harg2.read_unread, harg3.read_unread, View.ld_unit_zero (S := S8x385x385) hz3,
    View.ld_unit_zero (S := S1x385x385) hz3]
  exact congrArg (k0_pay2 _ _ _ _) (View.readCov_unit_zero (S := S1x1x1) arg4.view hz3 inb_S1x1x1_S1x1x1_0_0_0 _)

/-- A middle point: the slab's total added to the running total. -/
theorem out0_B_2_eq (c : Dev nD) (i : grid0.Coords) (arg2 : Memref sig .tc .vmem S8x385x385 .f32) (harg2 : arg2.IsWhole) (arg3 : Memref sig .tc .vmem S1x385x385 .f32) (harg3 : arg3.IsWhole) (arg4 : Memref sig .tc .vmem S1x1x1 .f32) (harg4 : arg4.IsWhole) (hc0 : ¬cond0_0 i) (hc1 : ¬cond0_1 i)
    (x0 : Vec F S8x385x385 .f32) (x1 : Vec F S1x385x385 .f32) (xo2 : Vec F S1x1x1 .f32) :
    out0_B_2 c i arg2 harg2 arg3 harg3 arg4 harg4 hc0 hc1 x0 x1 xo2
      = k0_pay2 (k0_pay5 x0) (k0_pay6 x0 x1) (k0_pay7 x0) (k0_pay8 x0) xo2 := by
  unfold out0_B_2
  rw [View.read_writes_junk_eq_canon]
  unfold kernelRun0_B
  dsimp only
  sl_unfold_words
  rw [View.canon_unit_zero hz3]
  simp only [View.readAt_eq_ld, harg2.read_unread, harg3.read_unread, harg4.read_unread, View.ld_unit_zero (S := S8x385x385) hz3,
    View.ld_unit_zero (S := S1x385x385) hz3, View.ld_unit_zero (S := S1x1x1) hz3]

/-- The last point: the last plane's in-plane sums added to the running total, then the slab's total. -/
theorem out0_C_2_eq (c : Dev nD) (i : grid0.Coords) (arg2 : Memref sig .tc .vmem S8x385x385 .f32) (harg2 : arg2.IsWhole) (arg3 : Memref sig .tc .vmem S1x385x385 .f32) (harg3 : arg3.IsWhole) (arg4 : Memref sig .tc .vmem S1x1x1 .f32) (harg4 : arg4.IsWhole) (hc0 : ¬cond0_0 i) (hc1 : cond0_1 i)
    (x0 : Vec F S8x385x385 .f32) (x1 : Vec F S1x385x385 .f32) (xo2 : Vec F S1x1x1 .f32) :
    out0_C_2 c i arg2 harg2 arg3 harg3 arg4 harg4 hc0 hc1 x0 x1 xo2
      = k0_pay2 (k0_pay5 x0) (k0_pay6 x0 x1) (k0_pay7 x0) (k0_pay8 x0) (k0_pay1 (k0_pay4 x1) xo2) := by
  unfold out0_C_2
  rw [View.read_writes_junk_eq_canon]
  unfold kernelRun0_C
  dsimp only
  sl_unfold_words
  rw [View.canon_cons_unit_zero hz3]
  simp only [View.readAt_eq_ld, harg2.read_unread, harg3.read_unread, harg4.read_unread, View.ld_unit_zero (S := S8x385x385) hz3,
    View.ld_unit_zero (S := S1x385x385) hz3, View.ld_unit_zero (S := S1x1x1) hz3]
  exact congrArg (k0_pay2 _ _ _ _) (View.readCov_unit_zero (S := S1x1x1) arg4.view hz3 inb_S1x1x1_S1x1x1_0_0_0 _)

end Cert.KernelIdeal.Hand

end
-- ==== Proof.Payloads.lean ====
/-
  The arithmetic of the sweep's body, read at the extended reals.

  Each value the body stores is the running total plus a few partial sums, and each partial sum is a chain of
  one-axis sums of an array of absolute differences `|p - q|` of two shifted copies of a slab (or of a plane):
  innermost axis first, with a cast of a vector `[n]` to a column `[n, 1]` before the last sum and of `[1]` to
  `[1, 1]` after it. Over the extended reals a one-axis sum at an index is the finite sum over that axis's
  coordinates, a slice at unit strides reads the source at offset plus index, and a cast between shapes reads the
  element at the same row-major position. So a chain of three sums of a rank-3 array is the triple sum over its
  coordinates (`sum3_apply`), of two sums of a rank-2 array the double sum (`sum2_apply`), and the shifted copies
  read the slab at `r + 1` and `r` (`Fin.succ`, `Fin.castSucc`) on the axis that is cut. This gives the four partial
  sums of a slab (`pay5_apply` … `pay8_apply`: plane-to-plane inside the slab, halo against the last plane, along
  the second axis, along the third) and the two of a plane (`planeY_apply`, `planeZ_apply`), and with them the three
  stored values: `pay2_apply`, `pay1_apply`, `pay3_apply`.
-/
import proofs.«145846_j44753559224580_2_alg».proof.Proof.Spec
import proofs.«145846_j44753559224580_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KIValue

open Cert.KernelIdeal Cert.KernelIdeal.Gen Idealize.ShloMosaic Idealize.ShloMosaic.ValueIdx

/-! ## One-axis sums, casts and slices at an index given by coordinates -/

namespace Aux

variable {α : Type}

/-- The sum over the last axis of a rank-3 array, at `(a, b)`: the sum over `c` of the array at `(a, b, c)`. -/
theorem red3_last {n0 n1 n2 : ℕ} (src : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec 32) = FKind.add.neutral .f32 hφ) (a : Fin n0) (b : Fin n1) :
    multiReduction .add [2] ⟨2, ![n0, n1]⟩ src 0x00000000#32 h hφ hacc (ix2 a b) = ∑ c : Fin n2, src (ix3 a b c) := by
  refine (Ideal.multiReduction_add_single src _ h hφ hacc (ix2 a b)).trans ?_
  refine Finset.sum_congr rfl fun c _ => congrArg src (funext fun d => Fin.ext ?_)
  match d with
  | ⟨0, _⟩ => rfl
  | ⟨1, _⟩ => rfl
  | ⟨2, _⟩ => rfl

/-- The sum over the last axis of a rank-2 array, at `a`: the sum over `b` of the array at `(a, b)`. -/
theorem red2_last {n0 n1 : ℕ} (src : FVec Ideal ⟨2, ![n0, n1]⟩ .f32)
    (h : (⟨2, ![n0, n1]⟩ : Shape).Reduces [1] ⟨1, ![n0]⟩) (hφ : FKind.Formats .f32)
    (hacc : (0x00000000#32 : BitVec 32) = FKind.add.neutral .f32 hφ) (a : Fin n0) :
    multiReduction .add [1] ⟨1, ![n0]⟩ src 0x00000000#32 h hφ hacc (ix1 a) = ∑ b : Fin n1, src (ix2 a b) := by
  refine (Ideal.multiReduction_add_single src _ h hφ hacc (ix1 a)).trans ?_
  refine Finset.sum_congr rfl fun c _ => congrArg src (funext fun d => Fin.ext ?_)
  match d with
  | ⟨0, _⟩ => rfl
  | ⟨1, _⟩ => rfl

/-- The sum over the first axis of a rank-2 array, at `b`: the sum over `a` of the array at `(a, b)`. -/
theorem red2_first {n0 n1 : ℕ} (src : FVec Ideal ⟨2, ![n0, n1]⟩ .f32)
    (h : (⟨2, ![n0, n1]⟩ : Shape).Reduces [0] ⟨1, ![n1]⟩) (hφ : FKind.Formats .f32)
    (hacc : (0x00000000#32 : BitVec 32) = FKind.add.neutral .f32 hφ) (b : Fin n1) :
    multiReduction .add [0] ⟨1, ![n1]⟩ src 0x00000000#32 h hφ hacc (ix1 b) = ∑ a : Fin n0, src (ix2 a b) := by
  refine (Ideal.multiReduction_add_single src _ h hφ hacc (ix1 b)).trans ?_
  refine Finset.sum_congr rfl fun c _ => congrArg src (funext fun d => Fin.ext ?_)
  match d with
  | ⟨0, _⟩ => rfl
  | ⟨1, _⟩ => rfl

/-- A vector cast to one column, `[n]` to `[n, 1]`, reads at `(a, u)` the operand at `a`: both have row-major
    position `a`. -/
theorem shapeCast_a_a1_apply {n : ℕ} (x : (⟨1, ![n]⟩ : Shape).Idx → α) (h : (⟨1, ![n]⟩ : Shape).ShapeCasts ⟨2, ![n, 1]⟩)
    (a : Fin n) (u : Fin 1) : shapeCast ⟨2, ![n, 1]⟩ x h (ix2 a u) = x (ix1 a) :=
  shapeCast_apply x h _ _ (by
    have hu : u.val = 0 := by omega
    rw [Shape.rowMajor_val_two, Shape.rowMajor_val_one]
    show a.val = a.val * 1 + u.val
    rw [hu, Nat.mul_one, Nat.add_zero])

/-- A rank-3 slice at unit strides reads, at `(a, b, c)`, the source at the coordinates `offset + index`. -/
theorem slice3_apply {n0 n1 n2 m0 m1 m2 : ℕ} (o0 o1 o2 : ℕ) (X : (⟨3, ![n0, n1, n2]⟩ : Shape).Idx → α)
    (h : (⟨3, ![n0, n1, n2]⟩ : Shape).Slices ![o0, o1, o2] ⟨3, ![m0, m1, m2]⟩)
    (a : Fin m0) (b : Fin m1) (c : Fin m2) (k0 : Fin n0) (k1 : Fin n1) (k2 : Fin n2)
    (h0 : k0.val = o0 + a.val) (h1 : k1.val = o1 + b.val) (h2 : k2.val = o2 + c.val) :
    extractStridedSlice ⟨3, ![m0, m1, m2]⟩ ![o0, o1, o2] X h (ix3 a b c) = X (ix3 k0 k1 k2) :=
  extractStridedSlice_apply _ _ _ _ _ (fun ax => by
    match ax with
    | ⟨0, _⟩ => exact h0
    | ⟨1, _⟩ => exact h1
    | ⟨2, _⟩ => exact h2)

/-- A rank-2 slice at unit strides reads, at `(a, b)`, the source at the coordinates `offset + index`. -/
theorem slice2_apply {n0 n1 m0 m1 : ℕ} (o0 o1 : ℕ) (X : (⟨2, ![n0, n1]⟩ : Shape).Idx → α)
    (h : (⟨2, ![n0, n1]⟩ : Shape).Slices ![o0, o1] ⟨2, ![m0, m1]⟩)
    (a : Fin m0) (b : Fin m1) (k0 : Fin n0) (k1 : Fin n1)
    (h0 : k0.val = o0 + a.val) (h1 : k1.val = o1 + b.val) :
    extractStridedSlice ⟨2, ![m0, m1]⟩ ![o0, o1] X h (ix2 a b) = X (ix2 k0 k1) :=
  extractStridedSlice_apply _ _ _ _ _ (fun ax => by
    match ax with
    | ⟨0, _⟩ => exact h0
    | ⟨1, _⟩ => exact h1)

/-- Three nested one-axis sums of a rank-3 array, innermost axis first, with the cast to a column before the last
    sum and the cast `[1]` to `[1, 1]` after it: the triple sum over the coordinates. -/
theorem sum3_apply {n0 n1 n2 : ℕ} (src : FVec Ideal ⟨3, ![n0, n1, n2]⟩ .f32)
    (h2 : (⟨3, ![n0, n1, n2]⟩ : Shape).Reduces [2] ⟨2, ![n0, n1]⟩)
    (h1 : (⟨2, ![n0, n1]⟩ : Shape).Reduces [1] ⟨1, ![n0]⟩)
    (hc : (⟨1, ![n0]⟩ : Shape).ShapeCasts ⟨2, ![n0, 1]⟩)
    (h0 : (⟨2, ![n0, 1]⟩ : Shape).Reduces [0] ⟨1, ![1]⟩)
    (hc1 : (⟨1, ![1]⟩ : Shape).ShapeCasts ⟨2, ![1, 1]⟩)
    (hφ : FKind.Formats .f32) (hacc : (0x00000000#32 : BitVec 32) = FKind.add.neutral .f32 hφ) (u v : Fin 1) :
    shapeCast ⟨2, ![1, 1]⟩
        (multiReduction .add [0] ⟨1, ![1]⟩
          (shapeCast ⟨2, ![n0, 1]⟩
            (multiReduction .add [1] ⟨1, ![n0]⟩
              (multiReduction .add [2] ⟨2, ![n0, n1]⟩ src 0x00000000#32 h2 hφ hacc) 0x00000000#32 h1 hφ hacc) hc)
          0x00000000#32 h0 hφ hacc) hc1 (ix2 u v)
      = ∑ a : Fin n0, ∑ b : Fin n1, ∑ c : Fin n2, src (ix3 a b c) := by
  refine (shapeCast_a_a1_apply _ hc1 u v).trans ?_
  refine (red2_first _ h0 hφ hacc u).trans ?_
  refine Finset.sum_congr rfl fun a _ => ?_
  refine (shapeCast_a_a1_apply _ hc a u).trans ?_
  refine (red2_last _ h1 hφ hacc a).trans ?_
  exact Finset.sum_congr rfl fun b _ => red3_last src h2 hφ hacc a b

/-- Two nested one-axis sums of a rank-2 array, innermost axis first, with the cast to a column between them and
    the cast `[1]` to `[1, 1]` after: the double sum over the coordinates. -/
theorem sum2_apply {n0 n1 : ℕ} (src : FVec Ideal ⟨2, ![n0, n1]⟩ .f32)
    (h1 : (⟨2, ![n0, n1]⟩ : Shape).Reduces [1] ⟨1, ![n0]⟩)
    (hc : (⟨1, ![n0]⟩ : Shape).ShapeCasts ⟨2, ![n0, 1]⟩)
    (h0 : (⟨2, ![n0, 1]⟩ : Shape).Reduces [0] ⟨1, ![1]⟩)
    (hc1 : (⟨1, ![1]⟩ : Shape).ShapeCasts ⟨2, ![1, 1]⟩)
    (hφ : FKind.Formats .f32) (hacc : (0x00000000#32 : BitVec 32) = FKind.add.neutral .f32 hφ) (u v : Fin 1) :
    shapeCast ⟨2, ![1, 1]⟩
        (multiReduction .add [0] ⟨1, ![1]⟩
          (shapeCast ⟨2, ![n0, 1]⟩
            (multiReduction .add [1] ⟨1, ![n0]⟩ src 0x00000000#32 h1 hφ hacc) hc)
          0x00000000#32 h0 hφ hacc) hc1 (ix2 u v)
      = ∑ a : Fin n0, ∑ b : Fin n1, src (ix2 a b) := by
  refine (shapeCast_a_a1_apply _ hc1 u v).trans ?_
  refine (red2_first _ h0 hφ hacc u).trans ?_
  refine Finset.sum_congr rfl fun a _ => ?_
  refine (shapeCast_a_a1_apply _ hc a u).trans ?_
  exact red2_last src h1 hφ hacc a

/-- The absolute difference of two arrays at an index, once both are read there: `max (p - q) (-(p - q))`. -/
theorem absdiff_apply {s : Shape} (X Y : FVec Ideal s .f32) (i : s.Idx) (p q : EReal) (hp : X i = p) (hq : Y i = q) :
    absf (subf X Y) i = Cert.Occ.dd p q := by
  subst hp hq; rfl

/-- A sum of two equal pairs. -/
theorem add_congr' {x x' y y' : EReal} (hx : x = x') (hy : y = y') : x + y = x' + y' := by rw [hx, hy]

end Aux

open Aux

/-! ## The partial sums of a slab and of a plane -/

/-- The halo plane, its unit axis dropped, read by coordinates. -/
theorem pay4_apply (v4 : Vec Ideal S1x385x385 .f32) (y z : Fin 385) :
    k0_pay4 (F := Ideal) v4 (ix2 y z) = Cert.Occ.planeOf v4 y z :=
  shapeCast_1ab_ab_apply v4 _ y z

/-- The seven plane-to-plane differences inside the slab: planes `r + 1` against `r`. -/
theorem pay5_apply (v3 : Vec Ideal S8x385x385 .f32) (u v : Fin 1) :
    k0_pay5 (F := Ideal) v3 (ix2 u v) = Cert.Occ.inner (Cert.Occ.slabOf v3) := by
  unfold k0_pay5
  refine (sum3_apply _ _ _ _ _ _ _ _ u v).trans ?_
  unfold Cert.Occ.inner
  refine Finset.sum_congr rfl fun r _ => Finset.sum_congr rfl fun y _ => Finset.sum_congr rfl fun z _ => ?_
  exact absdiff_apply _ _ _ _ _
    (slice3_apply 1 0 0 v3 _ r y z r.succ y z (by rw [Fin.val_succ, Nat.add_comm]) (Nat.zero_add _).symm (Nat.zero_add _).symm)
    (slice3_apply 0 0 0 v3 _ r y z r.castSucc y z (by rw [Fin.val_castSucc, Nat.zero_add]) (Nat.zero_add _).symm (Nat.zero_add _).symm)

/-- The differences between the halo plane and the slab's last plane, plane 7. -/
theorem pay6_apply (v3 : Vec Ideal S8x385x385 .f32) (v4 : Vec Ideal S1x385x385 .f32) (u v : Fin 1) :
    k0_pay6 (F := Ideal) v3 v4 (ix2 u v) = Cert.Occ.bound (Cert.Occ.slabOf v3) (Cert.Occ.planeOf v4) := by
  unfold k0_pay6
  refine (sum2_apply _ _ _ _ _ _ _ u v).trans ?_
  unfold Cert.Occ.bound
  refine Finset.sum_congr rfl fun y _ => Finset.sum_congr rfl fun z _ => ?_
  exact absdiff_apply _ _ _ _ _ (pay4_apply v4 y z)
    ((shapeCast_1ab_ab_apply _ _ y z).trans
      (slice3_apply 7 0 0 v3 _ (0 : Fin 1) y z (7 : Fin 8) y z rfl (Nat.zero_add _).symm (Nat.zero_add _).symm))

/-- The slab's differences along the second axis: rows `y + 1` against `y`. -/
theorem pay7_apply (v3 : Vec Ideal S8x385x385 .f32) (u v : Fin 1) :
    k0_pay7 (F := Ideal) v3 (ix2 u v) = Cert.Occ.alongY (Cert.Occ.slabOf v3) := by
  unfold k0_pay7
  refine (sum3_apply _ _ _ _ _ _ _ _ u v).trans ?_
  unfold Cert.Occ.alongY
  refine Finset.sum_congr rfl fun r _ => Finset.sum_congr rfl fun y _ => Finset.sum_congr rfl fun z _ => ?_
  exact absdiff_apply _ _ _ _ _
    (slice3_apply 0 1 0 v3 _ r y z r y.succ z (Nat.zero_add _).symm (by rw [Fin.val_succ, Nat.add_comm]) (Nat.zero_add _).symm)
    (slice3_apply 0 0 0 v3 _ r y z r y.castSucc z (Nat.zero_add _).symm (by rw [Fin.val_castSucc, Nat.zero_add]) (Nat.zero_add _).symm)

/-- The slab's differences along the third axis, columns `z + 1` against `z`: the column of per-plane sums, summed
    over the planes where the running total is formed. -/
theorem pay8_apply (v3 : Vec Ideal S8x385x385 .f32) (h0 : S8x1.Reduces [0] S1) (hc1 : S1.ShapeCasts S1x1)
    (hφ : FKind.Formats .f32) (hacc : (0x00000000#32 : BitVec 32) = FKind.add.neutral .f32 hφ) (u v : Fin 1) :
    shapeCast S1x1 (multiReduction .add [0] S1 (k0_pay8 (F := Ideal) v3) 0x00000000#32 h0 hφ hacc) hc1 (ix2 u v)
      = Cert.Occ.alongZ (Cert.Occ.slabOf v3) := by
  unfold k0_pay8
  refine (sum3_apply _ _ _ _ _ _ _ _ u v).trans ?_
  unfold Cert.Occ.alongZ
  refine Finset.sum_congr rfl fun r _ => Finset.sum_congr rfl fun y _ => Finset.sum_congr rfl fun z _ => ?_
  exact absdiff_apply _ _ _ _ _
    (slice3_apply 0 0 1 v3 _ r y z r y z.succ (Nat.zero_add _).symm (Nat.zero_add _).symm (by rw [Fin.val_succ, Nat.add_comm]))
    (slice3_apply 0 0 0 v3 _ r y z r y z.castSucc (Nat.zero_add _).symm (Nat.zero_add _).symm (by rw [Fin.val_castSucc, Nat.zero_add]))

/-- One plane's differences along its first axis. -/
theorem planeY_apply (v4 : Vec Ideal S1x385x385 .f32) (h1 : S384x385.Reduces [1] S384) (hc : S384.ShapeCasts S384x1)
    (h0 : S384x1.Reduces [0] S1) (hc1 : S1.ShapeCasts S1x1) (hs1 : S385x385.Slices ![1, 0] S384x385)
    (hs0 : S385x385.Slices ![0, 0] S384x385)
    (hφ : FKind.Formats .f32) (hacc : (0x00000000#32 : BitVec 32) = FKind.add.neutral .f32 hφ) (u v : Fin 1) :
    shapeCast S1x1 (multiReduction .add [0] S1 (shapeCast S384x1 (multiReduction .add [1] S384
        (absf (subf (extractStridedSlice S384x385 ![1, 0] (k0_pay4 (F := Ideal) v4) hs1)
          (extractStridedSlice S384x385 ![0, 0] (k0_pay4 (F := Ideal) v4) hs0)))
        0x00000000#32 h1 hφ hacc) hc) 0x00000000#32 h0 hφ hacc) hc1 (ix2 u v)
      = Cert.Occ.planeY (Cert.Occ.planeOf v4) := by
  refine (sum2_apply _ _ _ _ _ _ _ u v).trans ?_
  unfold Cert.Occ.planeY
  refine Finset.sum_congr rfl fun y _ => Finset.sum_congr rfl fun z _ => ?_
  exact absdiff_apply _ _ _ _ _
    ((slice2_apply 1 0 _ _ y z y.succ z (by rw [Fin.val_succ, Nat.add_comm]) (Nat.zero_add _).symm).trans (pay4_apply v4 _ _))
    ((slice2_apply 0 0 _ _ y z y.castSucc z (by rw [Fin.val_castSucc, Nat.zero_add]) (Nat.zero_add _).symm).trans (pay4_apply v4 _ _))

/-- One plane's differences along its second axis. -/
theorem planeZ_apply (v4 : Vec Ideal S1x385x385 .f32) (h1 : S385x384.Reduces [1] S385) (hc : S385.ShapeCasts S385x1)
    (h0 : S385x1.Reduces [0] S1) (hc1 : S1.ShapeCasts S1x1) (hs1 : S385x385.Slices ![0, 1] S385x384)
    (hs0 : S385x385.Slices ![0, 0] S385x384)
    (hφ : FKind.Formats .f32) (hacc : (0x00000000#32 : BitVec 32) = FKind.add.neutral .f32 hφ) (u v : Fin 1) :
    shapeCast S1x1 (multiReduction .add [0] S1 (shapeCast S385x1 (multiReduction .add [1] S385
        (absf (subf (extractStridedSlice S385x384 ![0, 1] (k0_pay4 (F := Ideal) v4) hs1)
          (extractStridedSlice S385x384 ![0, 0] (k0_pay4 (F := Ideal) v4) hs0)))
        0x00000000#32 h1 hφ hacc) hc) 0x00000000#32 h0 hφ hacc) hc1 (ix2 u v)
      = Cert.Occ.planeZ (Cert.Occ.planeOf v4) := by
  refine (sum2_apply _ _ _ _ _ _ _ u v).trans ?_
  unfold Cert.Occ.planeZ
  refine Finset.sum_congr rfl fun y _ => Finset.sum_congr rfl fun z _ => ?_
  exact absdiff_apply _ _ _ _ _
    ((slice2_apply 0 1 _ _ y z y z.succ (Nat.zero_add _).symm (by rw [Fin.val_succ, Nat.add_comm])).trans (pay4_apply v4 _ _))
    ((slice2_apply 0 0 _ _ y z y z.castSucc (Nat.zero_add _).symm (by rw [Fin.val_castSucc, Nat.zero_add])).trans (pay4_apply v4 _ _))

/-! ## The three stored values -/

/-- What is stored for a slab: the running total plus the slab's four partial sums, added in the order
    plane-to-plane, halo, second axis, third axis. -/
theorem pay2_apply (v3 : Vec Ideal S8x385x385 .f32) (v4 : Vec Ideal S1x385x385 .f32) (s : Vec Ideal S1x1x1 .f32) (j : S1x1x1.Idx) :
    k0_pay2 (F := Ideal) (k0_pay5 v3) (k0_pay6 v3 v4) (k0_pay7 v3) (k0_pay8 v3) s j
      = s j + Cert.Occ.slabTotal (Cert.Occ.slabOf v3) (Cert.Occ.planeOf v4) := by
  obtain ⟨a, b, c, rfl⟩ : ∃ a b c : Fin 1, j = ix3 a b c := ⟨j 0, j 1, j 2, eq_ix3 j⟩
  unfold k0_pay2
  refine (addf_apply _ _ _).trans (add_congr' (congrFun (shapeCast_self s _) _) ?_)
  refine (shapeCast_ab_1ab_apply _ _ a b c).trans ?_
  refine (addf_apply _ _ _).trans (add_congr' ?_ (pay8_apply v3 _ _ _ _ b c))
  refine (addf_apply _ _ _).trans (add_congr' ?_ (pay7_apply v3 b c))
  exact (addf_apply _ _ _).trans (add_congr' (pay5_apply v3 b c) (pay6_apply v3 v4 b c))

/-- What is stored at the last point: the running total plus the in-plane differences of the halo plane. -/
theorem pay1_apply (v4 : Vec Ideal S1x385x385 .f32) (s : Vec Ideal S1x1x1 .f32) (j : S1x1x1.Idx) :
    k0_pay1 (F := Ideal) (k0_pay4 v4) s j
      = s j + (Cert.Occ.planeY (Cert.Occ.planeOf v4) + Cert.Occ.planeZ (Cert.Occ.planeOf v4)) := by
  obtain ⟨a, b, c, rfl⟩ : ∃ a b c : Fin 1, j = ix3 a b c := ⟨j 0, j 1, j 2, eq_ix3 j⟩
  unfold k0_pay1
  refine (addf_apply _ _ _).trans (add_congr' (congrFun (shapeCast_self s _) _) ?_)
  refine (shapeCast_ab_1ab_apply _ _ a b c).trans ?_
  exact (addf_apply _ _ _).trans
    (add_congr' (planeY_apply v4 _ _ _ _ _ _ _ _ b c) (planeZ_apply v4 _ _ _ _ _ _ _ _ b c))

/-- The first store: the word of `0.0` read as the extended real zero. -/
theorem pay3_apply (j : S1x1x1.Idx) : k0_pay3 (F := Ideal) j = (0 : EReal) :=
  Ideal.ofBits_zero_f32

end Cert.KIValue

end
-- ==== Proof.LibBlockedSum.lean ====
/-
  Blocked sums. In any commutative additive monoid, a sum over `a · b` consecutive naturals is the sum,
  over the `a` blocks of length `b`, of the sums within each block: the index `n < a · b` is
  `b · t + r` for exactly one block number `t < a` and one offset `r < b` (quotient and remainder of
  the division by `b`). Stated over `Fin`, over `Finset.range`, for the first `k` blocks, and at
  `50000 = 25 · 2000`. Nothing here mentions a program.
-/
import Idealize.ShloMosaic.PureOps.Ideal
import Idealize.ShloMosaic.PureOps.Ideal.Laws
import Mathlib

namespace Cert.LibE

open scoped BigOperators

/-- A sum over `Fin (a * b)` is the sum over the `a` blocks of the sums over the `b` offsets, the
    element at block `t`, offset `r` being number `b * t + r` (the bijection between pairs
    (block, offset) and indices below `a * b`). -/
theorem sum_fin_mul {M : Type*} [AddCommMonoid M] (a b : ℕ) (f : ℕ → M) :
    ∑ n : Fin (a * b), f n.val = ∑ t : Fin a, ∑ r : Fin b, f (b * t.val + r.val) :=
  calc ∑ n : Fin (a * b), f n.val
      = ∑ p : Fin a × Fin b, f (finProdFinEquiv p).val :=
        (Equiv.sum_comp finProdFinEquiv (fun n : Fin (a * b) => f n.val)).symm
    _ = ∑ t : Fin a, ∑ r : Fin b, f (finProdFinEquiv (t, r)).val :=
        Fintype.sum_prod_type fun p : Fin a × Fin b => f (finProdFinEquiv p).val
    _ = ∑ t : Fin a, ∑ r : Fin b, f (b * t.val + r.val) :=
        Finset.sum_congr rfl fun t _ => Finset.sum_congr rfl fun r _ => by
          show f (r.val + b * t.val) = f (b * t.val + r.val)
          rw [add_comm]

/-- The same when the length is only KNOWN to be the product: `n = a * b`. -/
theorem sum_fin_of_eq_mul {M : Type*} [AddCommMonoid M] {n a b : ℕ} (h : n = a * b) (f : ℕ → M) :
    ∑ k : Fin n, f k.val = ∑ t : Fin a, ∑ r : Fin b, f (b * t.val + r.val) := by
  subst h; exact sum_fin_mul a b f

/-- `50000 = 25 · 2000`: a sum over 50000 indices is the sum over 25 blocks of 2000. -/
theorem sum_fin_50000 {M : Type*} [AddCommMonoid M] (f : ℕ → M) :
    ∑ n : Fin 50000, f n.val = ∑ t : Fin 25, ∑ r : Fin 2000, f (2000 * t.val + r.val) :=
  sum_fin_of_eq_mul (by norm_num) f

/-- The first `k` blocks of length `b` are the first `k * b` indices. -/
theorem sum_range_blocks_fin {M : Type*} [AddCommMonoid M] (k b : ℕ) (f : ℕ → M) :
    ∑ t ∈ Finset.range k, ∑ r : Fin b, f (b * t + r.val) = ∑ n ∈ Finset.range (k * b), f n :=
  calc ∑ t ∈ Finset.range k, ∑ r : Fin b, f (b * t + r.val)
      = ∑ t : Fin k, ∑ r : Fin b, f (b * t.val + r.val) :=
        Finset.sum_range fun t => ∑ r : Fin b, f (b * t + r.val)
    _ = ∑ n : Fin (k * b), f n.val := (sum_fin_mul k b f).symm
    _ = ∑ n ∈ Finset.range (k * b), f n := (Finset.sum_range f).symm

/-- The same with the offsets too ranging over `Finset.range b`. -/
theorem sum_range_blocks {M : Type*} [AddCommMonoid M] (k b : ℕ) (f : ℕ → M) :
    ∑ t ∈ Finset.range k, ∑ r ∈ Finset.range b, f (b * t + r) = ∑ n ∈ Finset.range (k * b), f n := by
  rw [← sum_range_blocks_fin]
  exact Finset.sum_congr rfl fun t _ => Finset.sum_range fun r => f (b * t + r)

/-- The first `k` blocks of 2000, as a sum over `Fin` of the first `k * 2000` indices. -/
theorem sum_range_blocks_fin_eq_sum_fin {M : Type*} [AddCommMonoid M] (k b : ℕ) (f : ℕ → M) :
    ∑ t ∈ Finset.range k, ∑ r : Fin b, f (b * t + r.val) = ∑ n : Fin (k * b), f n.val := by
  rw [sum_range_blocks_fin]; exact Finset.sum_range f

/-- All 25 blocks of 2000, counted by `Finset.range 25`, are the 50000 indices. -/
theorem sum_range_25_blocks {M : Type*} [AddCommMonoid M] (f : ℕ → M) :
    ∑ t ∈ Finset.range 25, ∑ r : Fin 2000, f (2000 * t + r.val) = ∑ n : Fin 50000, f n.val := by
  rw [sum_fin_50000]; exact Finset.sum_range fun t => ∑ r : Fin 2000, f (2000 * t + r.val)

/-- One more block: the first `k + 1` blocks are the first `k` blocks plus block number `k`. -/
theorem sum_range_blocks_succ {M : Type*} [AddCommMonoid M] (k b : ℕ) (f : ℕ → M) :
    ∑ t ∈ Finset.range (k + 1), ∑ r : Fin b, f (b * t + r.val)
      = (∑ t ∈ Finset.range k, ∑ r : Fin b, f (b * t + r.val)) + ∑ r : Fin b, f (b * k + r.val) :=
  Finset.sum_range_succ _ k

end Cert.LibE
-- ==== Proof.SlabSum.lean ====
/-
  The loss of a 385 × 385 × 385 array, cut into the contributions of its 48 slabs of eight planes and of the
  last plane.

  Every pair of axis-neighbours is counted exactly once on each side. Planes `0 … 383` are the planes
  `8g + r` of slab `g < 48` at offset `r < 8`; plane `384 = 8·47 + 8` is slab 47's halo.

  * First axis: the 384 pairs of consecutive planes `(k, k+1)`, `k < 384`, are, for `k = 8g + r`, the seven
    pairs inside slab `g` (`r < 7`) and the pair of its last plane with its halo (`r = 7`).
  * Second and third axes: the 385 planes are the 8 planes of each of the 48 slabs and plane 384.

  Only re-indexing of finite sums in a commutative monoid is used; the distance `dd` is never opened.
-/
import proofs.«145846_j44753559224580_2_alg».proof.Proof.Spec
import proofs.«145846_j44753559224580_2_alg».proof.Proof.LibBlockedSum

noncomputable section

open scoped BigOperators

namespace Cert.Occ

/-! ## Sums over 384 and 385 consecutive naturals, by blocks of eight -/

/-- A sum over the 384 naturals below `384 = 48 · 8` is the sum over 48 blocks of the sums over 8 offsets. -/
theorem sum_fin384 {M : Type*} [AddCommMonoid M] (f : ℕ → M) :
    ∑ x : Fin 384, f x.val = ∑ g ∈ Finset.range 48, ∑ r : Fin 8, f (8 * g + r.val) :=
  (Cert.LibE.sum_range_blocks_fin_eq_sum_fin 48 8 f).symm

/-- A sum over the 385 naturals below 385 is the 48 blocks of eight, plus the term at 384. -/
theorem sum_fin385 {M : Type*} [AddCommMonoid M] (f : ℕ → M) :
    ∑ x : Fin 385, f x.val = (∑ g ∈ Finset.range 48, ∑ r : Fin 8, f (8 * g + r.val)) + f 384 := by
  rw [Fin.sum_univ_castSucc, ← sum_fin384]
  rfl

/-! ## Plane numbers -/

/-- Plane number `x.val` is plane `x`. -/
theorem row_val (x : Fin 385) : row x.val = x := Fin.ext (Nat.mod_eq_of_lt x.isLt)
/-- For `x < 384`, plane number `x` is `x` seen among the 385 planes. -/
theorem row_castSucc (x : Fin 384) : row x.val = x.castSucc :=
  Fin.ext (Nat.mod_eq_of_lt (by have := x.isLt; omega))
/-- For `x < 384`, plane number `x + 1` is the successor of `x`. -/
theorem row_succ (x : Fin 384) : row (x.val + 1) = x.succ :=
  Fin.ext (Nat.mod_eq_of_lt (by have := x.isLt; omega))

/-! ## The three sums by plane number -/

/-- The differences between plane `k + 1` and plane `k`. -/
def px (A : Arr3) (k : ℕ) : EReal := ∑ y : Fin 385, ∑ z : Fin 385, dd (A (row (k + 1)) y z) (A (row k) y z)
/-- The differences along the second axis inside plane `k`. -/
def qy (A : Arr3) (k : ℕ) : EReal :=
  ∑ y : Fin 384, ∑ z : Fin 385, dd (A (row k) y.succ z) (A (row k) y.castSucc z)
/-- The differences along the third axis inside plane `k`. -/
def qz (A : Arr3) (k : ℕ) : EReal :=
  ∑ y : Fin 385, ∑ z : Fin 384, dd (A (row k) y z.succ) (A (row k) y z.castSucc)

theorem lx_eq (A : Arr3) : lx A = ∑ x : Fin 384, px A x.val := by
  unfold lx px
  refine Finset.sum_congr rfl fun x _ => ?_
  rw [row_succ, row_castSucc]

theorem ly_eq (A : Arr3) : ly A = ∑ x : Fin 385, qy A x.val := by
  unfold ly qy
  refine Finset.sum_congr rfl fun x _ => ?_
  rw [row_val]

theorem lz_eq (A : Arr3) : lz A = ∑ x : Fin 385, qz A x.val := by
  unfold lz qz
  refine Finset.sum_congr rfl fun x _ => ?_
  rw [row_val]

/-! ## One slab -/

/-- The eight plane-to-plane differences that start in slab `g`: the seven inside it and the one to its halo. -/
theorem block_x (A : Arr3) (g : ℕ) :
    ∑ r : Fin 8, px A (8 * g + r.val) = inner (slab A g) + bound (slab A g) (halo A g) := by
  rw [Fin.sum_univ_castSucc]
  rfl

/-- A slab's differences along the second axis are those of its eight planes. -/
theorem block_y (A : Arr3) (g : ℕ) : ∑ r : Fin 8, qy A (8 * g + r.val) = alongY (slab A g) := rfl

/-- A slab's differences along the third axis are those of its eight planes. -/
theorem block_z (A : Arr3) (g : ℕ) : ∑ r : Fin 8, qz A (8 * g + r.val) = alongZ (slab A g) := rfl

/-- Slab 47's halo is plane 384. -/
theorem planeY_halo47 (A : Arr3) : planeY (halo A 47) = qy A 384 := rfl
theorem planeZ_halo47 (A : Arr3) : planeZ (halo A 47) = qz A 384 := rfl

/-! ## The whole array -/

theorem lx_slabs (A : Arr3) :
    lx A = ∑ g ∈ Finset.range 48, (inner (slab A g) + bound (slab A g) (halo A g)) := by
  rw [lx_eq, sum_fin384 (px A)]
  exact Finset.sum_congr rfl fun g _ => block_x A g

theorem ly_slabs (A : Arr3) :
    ly A = (∑ g ∈ Finset.range 48, alongY (slab A g)) + planeY (halo A 47) := by
  rw [ly_eq, sum_fin385 (qy A), planeY_halo47]
  exact congrArg (· + qy A 384) (Finset.sum_congr rfl fun g _ => block_y A g)

theorem lz_slabs (A : Arr3) :
    lz A = (∑ g ∈ Finset.range 48, alongZ (slab A g)) + planeZ (halo A 47) := by
  rw [lz_eq, sum_fin385 (qz A), planeZ_halo47]
  exact congrArg (· + qz A 384) (Finset.sum_congr rfl fun g _ => block_z A g)

/-- The 48 slab totals and the in-plane differences of the last plane add up to the loss. -/
theorem slabs_total (A : Arr3) :
    (∑ g ∈ Finset.range 48, slabTotal (slab A g) (halo A g))
      + (planeY (halo A 47) + planeZ (halo A 47))
    = loss A := by
  unfold loss slabTotal
  rw [lx_slabs, ly_slabs, lz_slabs, Finset.sum_add_distrib, Finset.sum_add_distrib]
  abel

end Cert.Occ

end
-- ==== Proof.KI.Accum.lean ====
/-
  The accumulator's running total in closed form.

  The sweep visits the 48 slabs in two halves of 24. At the first point of a half the accumulator's buffer is
  reset to zero and the slab's total `T g` is added; at every other point the slab's total is added to what the
  point before left; at the very last point, 47, the in-plane differences of the last plane are added first and
  then slab 47's total. So after point `n` of the first half the buffer holds `T 0 + … + T n`, after point `n` of
  the second half `T 24 + … + T n`, and after point 47 the same with the last plane's two sums added in between.
  The two halves' final values together are all 48 slab totals and the last plane's sums: the loss of the array.
  Only the additive commutative monoid structure of the extended reals is used; no distance or partial sum is opened.
-/
import proofs.«145846_j44753559224580_2_alg».proof.Proof.KI.Frame
import proofs.«145846_j44753559224580_2_alg».proof.Proof.KI.Pieces
import proofs.«145846_j44753559224580_2_alg».proof.Proof.KI.Blocks
import proofs.«145846_j44753559224580_2_alg».proof.Proof.Payloads
import proofs.«145846_j44753559224580_2_alg».proof.Proof.SlabSum

set_option maxRecDepth 16384

noncomputable section

open scoped BigOperators

namespace Cert.KIValue

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ) (c : Dev nD)

/-- The array the sweep runs over, by coordinates. -/
def arr : Cert.Occ.Arr3 := Cert.Occ.arrOf (m ((c : Thread nD τ).loc main_arg0))

/-- Slab `g`'s contribution to the running total. -/
def T (g : ℕ) : EReal := Cert.Occ.slabTotal (Cert.Occ.slab (arr m c) g) (Cert.Occ.halo (arr m c) g)

/-! ## One point of the sweep -/

/-- The slab staged at point `t` contributes `T t`. -/
theorem total_blk (t : Fin cfg0.N) :
    Cert.Occ.slabTotal (Cert.Occ.slabOf (x0blk (F := Ideal) m c t)) (Cert.Occ.planeOf (x1blk (F := Ideal) m c t)) = T m c t.val := by
  rw [slab_x0blk, plane_x1blk]; rfl

/-- At the first point of a half the buffer is reset and holds the slab's total. -/
theorem step_first (t : Fin cfg0.N) (h0 : t.val % 24 = 0) (j : S1x1x1.Idx) :
    outsAt0 (F := Ideal) m c t.val t.isLt j = T m c t.val := by
  refine (congrFun ((outsAt0_A m c t h0).trans (out0_A_2_eq _ _ _ _ _ _ _ _ _ _ _ _)) j).trans ?_
  refine (pay2_apply _ _ _ j).trans ?_
  exact (Aux.add_congr' (pay3_apply j) (total_blk m c t)).trans (zero_add _)

/-- At a middle point the slab's total is added to what the point before left. -/
theorem step_middle (t : Fin cfg0.N) (h0 : ¬t.val % 24 = 0) (h1 : ¬t.val = 47) (j : S1x1x1.Idx) :
    outsAt0 (F := Ideal) m c t.val t.isLt j
      = outsAt0 (F := Ideal) m c (t.val - 1) (Nat.lt_of_le_of_lt (Nat.sub_le _ _) t.isLt) j + T m c t.val := by
  refine (congrFun ((outsAt0_B m c t h0 h1).trans (out0_B_2_eq _ _ _ _ _ _ _ _ _ _ _ _ _)) j).trans ?_
  refine (pay2_apply _ _ _ j).trans ?_
  exact Aux.add_congr' rfl (total_blk m c t)

/-- At the last point the halo plane's in-plane differences are added first, then the slab's total. -/
theorem step_last (t : Fin cfg0.N) (h0 : ¬t.val % 24 = 0) (h1 : t.val = 47) (j : S1x1x1.Idx) :
    outsAt0 (F := Ideal) m c t.val t.isLt j
      = outsAt0 (F := Ideal) m c (t.val - 1) (Nat.lt_of_le_of_lt (Nat.sub_le _ _) t.isLt) j
          + (Cert.Occ.planeY (Cert.Occ.halo (arr m c) t.val) + Cert.Occ.planeZ (Cert.Occ.halo (arr m c) t.val)) + T m c t.val := by
  refine (congrFun ((outsAt0_C m c t h0 h1).trans (out0_C_2_eq _ _ _ _ _ _ _ _ _ _ _ _ _)) j).trans ?_
  refine (pay2_apply _ _ _ j).trans ?_
  refine Aux.add_congr' ((pay1_apply _ _ j).trans ?_) (total_blk m c t)
  rw [plane_x1blk]; rfl

/-! ## The running total in closed form -/

variable (j : S1x1x1.Idx)

/-- After point `n` of the first half: the totals of slabs `0 … n`. -/
theorem outsAt0_first (n : ℕ) (hn : n < cfg0.N) (h : n < 24) :
    outsAt0 (F := Ideal) m c n hn j = ∑ g ∈ Finset.range (n + 1), T m c g := by
  induction n with
  | zero => exact (step_first m c ⟨0, hn⟩ (show (0 : ℕ) % 24 = 0 from rfl) j).trans (Finset.sum_range_one _).symm
  | succ n ih =>
    rw [Finset.sum_range_succ, ← ih (Nat.lt_of_succ_lt hn) (by omega)]
    exact step_middle m c ⟨n + 1, hn⟩ (by show ¬(n + 1) % 24 = 0; omega) (by show ¬n + 1 = 47; omega) j

/-- After point `n < 47` of the second half: the totals of slabs `24 … n`. -/
theorem outsAt0_second (n : ℕ) (hn : n < cfg0.N) (h24 : 24 ≤ n) (h : n < 47) :
    outsAt0 (F := Ideal) m c n hn j = ∑ g ∈ Finset.Ico 24 (n + 1), T m c g := by
  induction n, h24 using Nat.le_induction with
  | base =>
    rw [Finset.sum_Ico_succ_top (le_refl 24), Finset.Ico_self, Finset.sum_empty, zero_add]
    exact step_first m c ⟨24, hn⟩ (show (24 : ℕ) % 24 = 0 from rfl) j
  | succ n h24 ih =>
    rw [Finset.sum_Ico_succ_top (by omega : 24 ≤ n + 1), ← ih (Nat.lt_of_succ_lt hn) (by omega)]
    exact step_middle m c ⟨n + 1, hn⟩ (by show ¬(n + 1) % 24 = 0; omega) (by show ¬n + 1 = 47; omega) j

/-- After the last point: the totals of slabs `24 … 46`, the last plane's in-plane differences, and slab 47's total. -/
theorem outsAt0_last (hn : 47 < cfg0.N) :
    outsAt0 (F := Ideal) m c 47 hn j
      = (∑ g ∈ Finset.Ico 24 47, T m c g)
        + (Cert.Occ.planeY (Cert.Occ.halo (arr m c) 47) + Cert.Occ.planeZ (Cert.Occ.halo (arr m c) 47)) + T m c 47 := by
  rw [← outsAt0_second m c j 46 (Nat.lt_of_succ_lt hn) (by omega) (by omega)]
  exact step_last m c ⟨47, hn⟩ (show ¬(47 : ℕ) % 24 = 0 by decide) rfl j

/-- What the two halves leave, added: the loss of the array. -/
theorem halves_total (h23 : 23 < cfg0.N) (h47 : 47 < cfg0.N) (j j' : S1x1x1.Idx) :
    outsAt0 (F := Ideal) m c 23 h23 j + outsAt0 (F := Ideal) m c 47 h47 j' = Cert.Occ.loss (arr m c) := by
  rw [outsAt0_first m c j 23 h23 (by omega), outsAt0_last m c j' h47, ← Cert.Occ.slabs_total (arr m c),
    ← Finset.sum_range_add_sum_Ico (fun g => Cert.Occ.slabTotal (Cert.Occ.slab (arr m c) g) (Cert.Occ.halo (arr m c) g)) (by omega : 24 ≤ 48),
    Finset.sum_Ico_succ_top (by omega : 24 ≤ 47)]
  unfold T
  abel

end Cert.KIValue

end
-- ==== Proof.RefValue.lean ====
/-
  The reference program's result is the loss of its argument.

  The program takes, along each of the three axes, the two slices of the array that drop the first and the last
  plane, subtracts them, takes absolute values and sums everything; it then adds the three totals. Read at an
  index, the two slices of the first axis are the array at `(x+1, y, z)` and at `(x, y, z)` for `x < 384`, and
  likewise for the other axes; the absolute value of a difference `max (p - q) (-(p - q))` is the distance `dd p q`;
  a sum over all indices of a rank-3 shape is the triple sum over its coordinates; and the initial value of each
  sum is the constant `0`. So the three totals are `lx`, `ly` and `lz` of the array.
-/
import proofs.«145846_j44753559224580_2_alg».proof.Proof.Spec
import proofs.«145846_j44753559224580_2_alg».proof.Proof.Gen.ReferenceIdeal.Read
import Idealize.ShloMosaic.Lib.ValueIdx
import Idealize.ShloMosaic.Lib.Pipeline.Value
import Idealize.ShloMosaic.PureOps.Ideal.Laws

noncomputable section

namespace Cert.RefValue

open scoped BigOperators
open Cert.ReferenceIdeal Cert.ReferenceIdeal.Gen Cert.ReferenceIdeal.Read Cert.Occ
open Idealize.ShloMosaic Idealize.ShloMosaic.TcCoe Idealize.SL.Sem Idealize.ShloMosaic.StableHlo
open Idealize.ShloMosaic.ValueIdx

/-! ## A sum over a rank-3 index set is the triple sum over the coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The three slices read at coordinates -/

theorem idx_v0 (a : Fin 384) (b c : Fin 385) : idx_main_v0 (ix3 a b c) = ix3 (a.succ : Fin 385) b c := by
  funext d
  match d with
  | ⟨0, _⟩ => exact Fin.ext (Nat.add_comm 1 a.val)
  | ⟨1, _⟩ => rfl
  | ⟨2, _⟩ => rfl

theorem idx_v1 (a : Fin 384) (b c : Fin 385) : idx_main_v1 (ix3 a b c) = ix3 (a.castSucc : Fin 385) b c := by
  funext d
  match d with
  | ⟨0, _⟩ => rfl
  | ⟨1, _⟩ => rfl
  | ⟨2, _⟩ => rfl

theorem idx_v5 (a : Fin 385) (b : Fin 384) (c : Fin 385) : idx_main_v5 (ix3 a b c) = ix3 a (b.succ : Fin 385) c := by
  funext d
  match d with
  | ⟨0, _⟩ => rfl
  | ⟨1, _⟩ => exact Fin.ext (Nat.add_comm 1 b.val)
  | ⟨2, _⟩ => rfl

theorem idx_v6 (a : Fin 385) (b : Fin 384) (c : Fin 385) : idx_main_v6 (ix3 a b c) = ix3 a (b.castSucc : Fin 385) c := by
  funext d
  match d with
  | ⟨0, _⟩ => rfl
  | ⟨1, _⟩ => rfl
  | ⟨2, _⟩ => rfl

theorem idx_v10 (a b : Fin 385) (c : Fin 384) : idx_main_v10 (ix3 a b c) = ix3 a b (c.succ : Fin 385) := by
  funext d
  match d with
  | ⟨0, _⟩ => rfl
  | ⟨1, _⟩ => rfl
  | ⟨2, _⟩ => exact Fin.ext (Nat.add_comm 1 c.val)

theorem idx_v11 (a b : Fin 385) (c : Fin 384) : idx_main_v11 (ix3 a b c) = ix3 a b (c.castSucc : Fin 385) := by
  funext d
  match d with
  | ⟨0, _⟩ => rfl
  | ⟨1, _⟩ => rfl
  | ⟨2, _⟩ => rfl

/-! ## The three absolute differences at coordinates -/

variable (x0 : (⟨S385x385x385, .f32⟩ : BufTy).Contents (Elt Ideal))

theorem v3_at (a : Fin 384) (b c : Fin 385) :
    val_main_v3 (F := Ideal) x0 (ix3 a b c) = dd (arrOf x0 a.succ b c) (arrOf x0 a.castSucc b c) := by
  rw [val_main_v3_apply, val_main_v2_apply, val_main_v0_apply, val_main_v1_apply, idx_v0, idx_v1]
  rfl

theorem v8_at (a : Fin 385) (b : Fin 384) (c : Fin 385) :
    val_main_v8 (F := Ideal) x0 (ix3 a b c) = dd (arrOf x0 a b.succ c) (arrOf x0 a b.castSucc c) := by
  rw [val_main_v8_apply, val_main_v7_apply, val_main_v5_apply, val_main_v6_apply, idx_v5, idx_v6]
  rfl

theorem v13_at (a b : Fin 385) (c : Fin 384) :
    val_main_v13 (F := Ideal) x0 (ix3 a b c) = dd (arrOf x0 a b c.succ) (arrOf x0 a b c.castSucc) := by
  rw [val_main_v13_apply, val_main_v12_apply, val_main_v10_apply, val_main_v11_apply, idx_v10, idx_v11]
  rfl

/-! ## The three totals -/

theorem v4_eq (i : S_.Idx) : val_main_v4 (F := Ideal) x0 i = lx (arrOf x0) := by
  rw [val_main_v4_apply, val_main_cst_apply, Ideal.ofBits_def, Ideal.ofBits_zero_f32, zero_add, sum_idx3]
  exact Finset.sum_congr rfl fun a _ => Finset.sum_congr rfl fun b _ => Finset.sum_congr rfl fun c _ => v3_at x0 a b c

theorem v9_eq (i : S_.Idx) : val_main_v9 (F := Ideal) x0 i = ly (arrOf x0) := by
  rw [val_main_v9_apply, val_main_cst_0_apply, Ideal.ofBits_def, Ideal.ofBits_zero_f32, zero_add, sum_idx3]
  exact Finset.sum_congr rfl fun a _ => Finset.sum_congr rfl fun b _ => Finset.sum_congr rfl fun c _ => v8_at x0 a b c

theorem v14_eq (i : S_.Idx) : val_main_v14 (F := Ideal) x0 i = lz (arrOf x0) := by
  rw [val_main_v14_apply, val_main_cst_1_apply, Ideal.ofBits_def, Ideal.ofBits_zero_f32, zero_add, sum_idx3]
  exact Finset.sum_congr rfl fun a _ => Finset.sum_congr rfl fun b _ => Finset.sum_congr rfl fun c _ => v13_at x0 a b c

/-- The program's last value is the loss, at its one index. -/
theorem v16_eq (i : S_.Idx) : val_main_v16 (F := Ideal) x0 i = loss (arrOf x0) := by
  rw [val_main_v16_apply, val_main_v15_apply, v4_eq, v9_eq, v14_eq]
  rfl

/-! ## The program's result -/

/-- The term the program's run states for its result is the constant array whose one element is the loss. -/
theorem result_eq (a : (⟨S385x385x385, .f32⟩ : BufTy).Contents (Elt Ideal)) :
    addf (F := Ideal) (addf (Host.reduceAdd (Host.absf (subf (extractStridedSlice S384x385x385 ![1, 0, 0] a slices_S385x385x385_S384x385x385_1_0_0) (extractStridedSlice S384x385x385 ![0, 0, 0] a slices_S385x385x385_S384x385x385_0_0_0))) (constant S_ .f32 0x00000000#32) reducesTo_S384x385x385_S_d0_1_2 h_S_) (Host.reduceAdd (Host.absf (subf (extractStridedSlice S385x384x385 ![0, 1, 0] a slices_S385x385x385_S385x384x385_0_1_0) (extractStridedSlice S385x384x385 ![0, 0, 0] a slices_S385x385x385_S385x384x385_0_0_0))) (constant S_ .f32 0x00000000#32) reducesTo_S385x384x385_S_d0_1_2 h_S_)) (Host.reduceAdd (Host.absf (subf (extractStridedSlice S385x385x384 ![0, 0, 1] a slices_S385x385x385_S385x385x384_0_0_1) (extractStridedSlice S385x385x384 ![0, 0, 0] a slices_S385x385x385_S385x385x384_0_0_0))) (constant S_ .f32 0x00000000#32) reducesTo_S385x385x384_S_d0_1_2 h_S_)
      = fun _ => loss (arrOf a) := by
  rw [val_main_v16_eq]
  funext i
  exact v16_eq a i

/-- On every device, from any memory with zero counters: every weakly fair execution of the reference program
    terminates with its result buffer holding the loss of its argument, the argument unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
        r.2.mem ((c.tc : Thread Cert.ReferenceIdeal.nD Cert.ReferenceIdeal.τ).loc Cert.ReferenceIdeal.main_v16)
            = (fun _ => Cert.Occ.loss (Cert.Occ.arrOf (m' ((c.tc : Thread Cert.ReferenceIdeal.nD Cert.ReferenceIdeal.τ).loc Cert.ReferenceIdeal.main_arg0))))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)) :=
  (θ_run _ _ _).mono (fun _ h c => ⟨(h c).1.trans (result_eq _), (h c).2⟩)
    (Cert.ReferenceIdeal.Value.run (F := Ideal) m' ρ')

end Cert.RefValue

end
-- ==== Proof.KI.Value.lean ====
/-
  The idealized kernel program's result is the loss of its argument. The two host lines after the sweep add, to the
  constant zero, the accumulator array's two entries; each entry is what the last point of its half left in the
  staging buffer; the first half's running total is the sum of slabs 0 … 23, the second half's the sum of slabs
  24 … 47 and the last plane's in-plane differences; together they count every pair of neighbours once.
-/
import proofs.«145846_j44753559224580_2_alg».proof.Proof.KI.Launch
import proofs.«145846_j44753559224580_2_alg».proof.Proof.KI.Blocks
import proofs.«145846_j44753559224580_2_alg».proof.Proof.KI.Accum
import proofs.«145846_j44753559224580_2_alg».proof.Proof.RefValue
import Idealize.ShloMosaic.PureOps.Ideal.Laws
import Idealize.ShloMosaic.Lib.StableHlo.Run

set_option maxRecDepth 16384

noncomputable section

namespace Cert.KIValue

open scoped BigOperators
open Cert.KernelIdeal Cert.KernelIdeal.Gen Cert.KernelIdeal.Hand
open Idealize.ShloMosaic Idealize.ShloMosaic.TcCoe Idealize.SL.Sem Idealize.ShloMosaic.StableHlo
open Idealize.ShloMosaic.ValueIdx

variable (m : (ℓ : Loc nD τ sig) → Buf (Elt Ideal) ℓ) (c : Dev nD)

/-- The host lines' result as a term of the accumulator array at the region's exit. -/
theorem Wfin_v1_term :
    Wfin (F := Ideal) m c (Proc.devRef .tc main_v1)
      = Host.reduceAdd (F := Ideal) (Wexit (F := Ideal) m c (Proc.devRef .tc main_v0)) (constant (F := Ideal) S_ .f32 0x00000000#32) reducesTo_S2x1x1_S_d0_1_2 h_S_ := by
  unfold Wfin
  after_results

/-- The host's sum of a two-entry array into a scalar, from the constant zero: the two entries added. -/
theorem reduce2 (y : (⟨S2x1x1, .f32⟩ : BufTy).Contents (Elt Ideal)) (i : S_.Idx) :
    Host.reduceAdd (F := Ideal) y (constant (F := Ideal) S_ .f32 0x00000000#32) reducesTo_S2x1x1_S_d0_1_2 h_S_ i
      = y (ix3 0 0 0) + y (ix3 1 0 0) := by
  simp only [Host.reduceAdd, Ideal.hostReduceAdd_def]
  refine (Ideal.hostReduceAdd_total reducesTo_S2x1x1_S_d0_1_2 (fun b => b.elim0) y _ i).trans ?_
  rw [Cert.RefValue.sum_idx3]
  simp only [Fin.sum_univ_two, Fin.sum_univ_one]
  rw [show constant (F := Ideal) S_ .f32 0x00000000#32 (Shape.Idx.first h_S_) = Ideal.ofBits .f32 0x00000000#32 from rfl,
    Ideal.ofBits_zero_f32, zero_add]

theorem h23 : 23 < cfg0.N := by rw [show cfg0.N = 48 from N_0]; norm_num
theorem h47 : 47 < cfg0.N := by rw [show cfg0.N = 48 from N_0]; norm_num

/-- The result: what the last point of the first half left plus what the last point of the second half left. -/
theorem Wfin_v1_eq :
    Wfin (F := Ideal) m c (Proc.devRef .tc main_v1)
      = fun _ => outsAt0 (F := Ideal) m c 23 h23 (ix3 0 0 0) + outsAt0 (F := Ideal) m c 47 h47 (ix3 0 0 0) := by
  rw [Wfin_v1_term, Wexit_v0]
  funext i
  refine (reduce2 _ i).trans ?_
  rw [arrAt_final m c (ix3 0 0 0), arrAt_final m c (ix3 1 0 0)]
  exact congrArg₂ (· + ·)
    (congrFun (outsAt0_congr m c (show 24 * ((ix3 0 0 0 : S2x1x1.Idx) 0).val + 23 = 23 from rfl) _ _) _)
    (congrFun (outsAt0_congr m c (show 24 * ((ix3 1 0 0 : S2x1x1.Idx) 0).val + 23 = 47 from rfl) _ _) _)
/-- The result is the loss of the argument array. -/
theorem result_loss :
    Wfin (F := Ideal) m c (Proc.devRef .tc main_v1)
      = fun _ => Cert.Occ.loss (Cert.Occ.arrOf (m ((c : Thread nD τ).loc main_arg0))) := by
  rw [Wfin_v1_eq]
  funext _
  exact halves_total m c h23 h47 _ _

/-- For any extended-real values, from any memory whose counters are zero: every weakly fair execution of the idealized
    kernel program terminates, its result holding the loss of the argument array, the argument array unchanged. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = (fun _ => Cert.Occ.loss (Cert.Occ.arrOf (m ((c.tc : Thread nD τ).loc main_arg0))))
      ∧ r.2.mem ((c.tc : Thread nD τ).loc main_arg0) = m ((c.tc : Thread nD τ).loc main_arg0)) :=
  (θ_run _ _ _).mono (fun _ h c => ⟨(h c).1.trans (result_loss m c), (h c).2⟩) (run_main (F := Ideal) m ρ)

end Cert.KIValue

end
-- ==== Proof.lean ====
/-
  The occupancy-connectivity loss of a 385 × 385 × 385 array: the kernel program sweeps the array in 48 slabs of eight
  planes, two halves of 24 grid points, each half accumulating into its own entry of a two-entry array that two
  host lines then add; the reference sums the absolute differences of neighbours along each axis and adds the
  three totals. At the ideal instance both results are the sum over every pair of axis-neighbours of the absolute
  difference, each pair counted once — only the order and grouping of the additions differ, and addition of
  extended reals is commutative and associative, so no finiteness of the entries is used.

  The three frame claims: each program terminates on every weakly fair execution, faults nowhere and leaves its
  argument array as it was (the kernel programs by the run of the region and the two host lines; the reference by
  its run). The kernel's idealization rewrote no operation, so nothing is owed for it. The value claim: both runs
  end with the loss of the (agreeing) argument arrays.
-/
import proofs.«145846_j44753559224580_2_alg».proof.Defs
import proofs.«145846_j44753559224580_2_alg».proof.Proof.Gen.Kernel
import proofs.«145846_j44753559224580_2_alg».proof.Proof.Gen.KernelIdeal
import proofs.«145846_j44753559224580_2_alg».proof.Proof.Gen.ReferenceIdeal
import proofs.«145846_j44753559224580_2_alg».proof.Proof.Gen.Pre_finite_inputs
import proofs.«145846_j44753559224580_2_alg».proof.Proof.Gen.ReferenceIdeal.Run
import proofs.«145846_j44753559224580_2_alg».proof.Proof.K.Launch
import proofs.«145846_j44753559224580_2_alg».proof.Proof.KI.Value
import proofs.«145846_j44753559224580_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its argument unchanged. -/
theorem frame_k : Cert.frame_Kernel (hKernel := Cert.Kernel.Gen.facts) (hPre_finite_inputs := Cert.Pre_finite_inputs.Gen.facts) := fun m ρ _ =>
  (θ_run (Cert.Kernel.defs (F := Bits)) _ _).mono (fun _ h c => (h c).2) (Cert.Kernel.Hand.run_main (F := Bits) m ρ)

/-- The idealized kernel program runs and leaves its argument unchanged. -/
theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun _ h c => (h c).2) (Cert.KernelIdeal.Hand.run_main (F := Ideal) m ρ)

/-- The idealized reference runs and leaves its argument unchanged. -/
theorem frame_ri : Cert.frame_ReferenceIdeal (hReferenceIdeal := Cert.ReferenceIdeal.Gen.facts) (hPre_finite_inputs := Cert.Pre_finite_inputs.Gen.facts) := fun m ρ _ =>
  (θ_run (Cert.ReferenceIdeal.defs (F := Ideal)) _ _).mono (fun _ h c => (h c).2) (Cert.ReferenceIdeal.Value.run (F := Ideal) m ρ)

/-- From memories agreeing on the argument, both idealized programs end with the loss of that argument. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => fun _ => Cert.Occ.loss (Cert.Occ.arrOf (m ((c.tc : Thread Cert.KernelIdeal.nD Cert.KernelIdeal.τ).loc Cert.KernelIdeal.main_arg0))),
    Cert.KIValue.run_value m ρ, ?_⟩
  refine (θ_run (Cert.ReferenceIdeal.defs (F := Ideal)) _ _).mono (fun _ h c => ⟨(h c).1.trans ?_, (h c).2⟩) (Cert.RefValue.run m' ρ')
  rw [hagree c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
